-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x256 : Shape := ⟨2, ![2000, 256]⟩
abbrev S2000x64 : Shape := ⟨2, ![2000, 64]⟩
abbrev S1700000x64 : Shape := ⟨2, ![1700000, 64]⟩
abbrev S1x64 : Shape := ⟨2, ![1, 64]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x40, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S64x40, .f32⟩
  | .local _ .vmem, ⟨12, _⟩ => ⟨S2000x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x64_S2000x64_1_0_0_1_n_n_wf : DotDims.WF S2000x256 S256x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x40_S2000x40_1_0_0_1_n_n_wf : DotDims.WF S2000x64 S64x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S100000x40.size a
  hwx3_1 : ∀ i : grid3.Coords, EltTy.bits .f32 = 32 ∨ (Rect.block (s := S100000x40) S2000x40.size (cc3_transform_1 i) (hinb3_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v48) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S_, .f32⟩
  | .hbm, ⟨69, _⟩ => ⟨S100000x64, .f32⟩
  | .hbm, ⟨70, _⟩ => ⟨S100000x64, .i1⟩
  | .hbm, ⟨71, _⟩ => ⟨S_, .f32⟩
  | .hbm, ⟨72, _⟩ => ⟨S100000x64, .f32⟩
  | .hbm, ⟨73, _⟩ => ⟨S100000x64, .i1⟩
  | .hbm, ⟨74, _⟩ => ⟨S_, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x40, .f32⟩
  | .hbm, ⟨87, _⟩ => ⟨S1700000x1, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x40, .f32⟩
  | .hbm, ⟨97, _⟩ => ⟨S1700000x40, .f32⟩
  | .hbm, ⟨98, _⟩ => ⟨S1700000x40, .f32⟩
  | .hbm, ⟨99, _⟩ => ⟨S_, .f32⟩
  | .hbm, ⟨100, _⟩ => ⟨S100000x40, .f32⟩
  | .hbm, ⟨101, _⟩ => ⟨S1700000x1, .i32⟩
  | .hbm, ⟨102, _⟩ => ⟨S100000x40, .f32⟩
  | .hbm, ⟨103, _⟩ => ⟨S1x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S100000, .f32⟩
  | .hbm, ⟨111, _⟩ => ⟨S100000x1, .f32⟩
  | .hbm, ⟨112, _⟩ => ⟨S100000x40, .f32⟩
  | .hbm, ⟨113, _⟩ => ⟨S100000x40, .f32⟩
  | .hbm, ⟨114, _⟩ => ⟨S100000x40, .f32⟩
  | .hbm, ⟨115, _⟩ => ⟨S_, .f32⟩
  | .hbm, ⟨116, _⟩ => ⟨S100000, .f32⟩
  | .hbm, ⟨117, _⟩ => ⟨S100000x1, .f32⟩
  | .hbm, ⟨118, _⟩ => ⟨S100000x1, .f32⟩
  | .hbm, ⟨119, _⟩ => ⟨S100000x40, .f32⟩
  | .hbm, ⟨120, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_cst_0 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_cst_1 : Ref sig .tc := ⟨.hbm, 74, rfl⟩
abbrev main_call1_call0_call0_v0 : Ref sig .tc := ⟨.hbm, 75, rfl⟩
abbrev main_call1_call0_call0_v1 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_9 : Ref sig .tc := ⟨.hbm, 88, rfl⟩
abbrev main_v51 : Ref sig .tc := ⟨.hbm, 89, rfl⟩
abbrev main_v52 : Ref sig .tc := ⟨.hbm, 90, rfl⟩
abbrev main_c_10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_v66 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's program, run: every weakly fair execution of its @main terminates without a fault, the six
  argument arrays end as launched, and the result array ends at the contents the last of its four regions leaves —
  named here as the last boundary of the fold of buffer contents through @main (host stretch, region, host stretch, …),
  which the modules importing this one read back stage by stage.
-/
import proofs.«137224_j25374666785385_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- @main as nine segments (five host stretches, four regions) from the launch memory: the last thread state holds every
    unscoped buffer at the last boundary's contents, read against the final state; the result array is one of those
    buffers, and each argument's contents walk back through the fold to the launch memory. -/
theorem run : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v66 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.Stages.lean ====
/-
  The graph operations of a two-layer graph convolution, as pure functions of arrays over the extended reals.

  Both programs build them from the same host operations; here each group is named once, so that a program's stretch of
  host operations reads back as one function applied to the arrays it started from.
    * `rowOf ei`, `colOf ei`   : the source and the target of every edge — row 0 resp. row 1 of the edge list, followed by
                                  one self-loop `i → i` per node `i` (1,600,000 + 100,000 entries);
    * `degree col`             : for every node the number of edges arriving at it — ones summed into the targets;
    * `invSqrtDeg col`         : `1/√degree` where the degree is positive, zero elsewhere;
    * `edgeWeight row col`     : for every edge the product of that factor at its source, one, and that factor at its target;
    * `aggregate64 row col w p b`, `aggregate40 …` : every edge takes the row of `p` at its source scaled by the edge's
                                  weight; the rows are summed into the edge's target; the bias `b` is added to every row.
  An index list is used as the host does: a negative entry is first moved up by the number of nodes.
-/
import proofs.«137224_j25374666785385_1_alg».proof.Proof.Gen.KernelIdeal
import Idealize.ShloMosaic.PureOps.Ideal

noncomputable section

namespace Gcn.Stages

open Idealize.ShloMosaic Cert.KernelIdeal Cert.KernelIdeal.Gen

/-- The sources of the edges, self-loops appended. -/
def rowOf (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- The targets of the edges, self-loops appended. -/
def colOf (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- An index list as one column, a negative entry moved up by the number of nodes first. -/
def indexColumn (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The number one for every edge. -/
def onePerEdge : FVec Ideal S1700000 .f32 :=
  broadcastInDim S1700000 ![] bcast_S_S1700000 (constant (F := Ideal) S_ .f32 0x3F800000#32)

/-- The number of edges arriving at each node. -/
def degree (col : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 col) onePerEdge

/-- Which nodes have a positive degree. -/
def degreePositive (col : IVec S1700000 32) : IVec S100000 1 :=
  cmpf .ogt (degree col) (broadcastInDim S100000 ![] bcast_S_S100000 (constant (F := Ideal) S_ .f32 0x00000000#32))

/-- One of two arrays entry by entry, the second a repeated number: `where(mask, a, z)`. -/
def whereElse (mask : IVec S100000 1) (a : FVec Ideal S100000 .f32) (z : FVec Ideal S_ .f32) : FVec Ideal S100000 .f32 :=
  select mask a (broadcastInDim S100000 ![] bcast_S_S100000 (id z))

/-- `1/√degree` where the degree is positive, zero elsewhere. -/
def invSqrtDeg (col : IVec S1700000 32) : FVec Ideal S100000 .f32 :=
  whereElse (degreePositive col) (Host.rsqrt (degree col)) (constant (F := Ideal) S_ .f32 0x00000000#32)

/-- The weight of every edge from a per-node factor `d` and a per-edge factor `u`: `d` at the source, times `u`, times `d`
    at the target. -/
def edgeWeightFrom (d : FVec Ideal S100000 .f32) (u : FVec Ideal S1700000 .f32) (row col : IVec S1700000 32) :
    FVec Ideal S1700000 .f32 :=
  mulf (mulf (Host.gather gather_S100000_S1700000x1_S1700000_n_0_n_n_0_1_1 d (indexColumn row)) u)
    (Host.gather gather_S100000_S1700000x1_S1700000_n_0_n_n_0_1_1 d (indexColumn col))

/-- The weight of every edge. -/
def edgeWeight (row col : IVec S1700000 32) : FVec Ideal S1700000 .f32 :=
  edgeWeightFrom (invSqrtDeg col) onePerEdge row col

/-- Weighted rows of `p` gathered along the sources, summed into the targets, plus the bias: 64 columns. -/
def aggregate64 (row col : IVec S1700000 32) (w : FVec Ideal S1700000 .f32) (p : FVec Ideal S100000x64 .f32)
    (b : FVec Ideal S64 .f32) : FVec Ideal S100000x64 .f32 :=
  addf
    (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 col)
      (mulf
        (broadcastInDim S1700000x64 ![0, 1] bcast_S1700000x1_S1700000x64_0_1
          (broadcastInDim S1700000x1 ![0] bcast_S1700000_S1700000x1_0 w))
        (Host.gather gather_S100000x64_S1700000x1_S1700000x64_1_0_n_n_0_1_164 p (indexColumn row))))
    (broadcastInDim S100000x64 ![0, 1] bcast_S1x64_S100000x64_0_1 (broadcastInDim S1x64 ![1] bcast_S64_S1x64_1 b))

/-- The same with 40 columns. -/
def aggregate40 (row col : IVec S1700000 32) (w : FVec Ideal S1700000 .f32) (p : FVec Ideal S100000x40 .f32)
    (b : FVec Ideal S40 .f32) : FVec Ideal S100000x40 .f32 :=
  addf
    (Host.scatterAdd scatter_S100000x40_S1700000x1_S1700000x40_1_0_0_1
      (broadcastInDim S100000x40 ![] bcast_S_S100000x40 (constant (F := Ideal) S_ .f32 0x00000000#32))
      (broadcastInDim S1700000x1 ![0] bcast_S1700000_S1700000x1_0 col)
      (mulf
        (broadcastInDim S1700000x40 ![0, 1] bcast_S1700000x1_S1700000x40_0_1
          (broadcastInDim S1700000x1 ![0] bcast_S1700000_S1700000x1_0 w))
        (Host.gather gather_S100000x40_S1700000x1_S1700000x40_1_0_n_n_0_1_140 p (indexColumn row))))
    (broadcastInDim S100000x40 ![0, 1] bcast_S1x40_S100000x40_0_1 (broadcastInDim S1x40 ![1] bcast_S40_S1x40_1 b))

end Gcn.Stages

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibReadLine.lean ====
/-
  One tactic for reading a buffer's contents after a line of host operations.

  The contents after a line are a fold of the operations' results over the contents before it. Reading the fold at one
  buffer is a computation: each operation's result at its own result buffer is its function of its operands' contents, and
  at any other buffer what was there (the references differ: decided). `read_line` does this in one simplifier pass — so
  that a value with several consumers is visited once — with two additions:
    * a two-operand concatenation is opened into a function of its two operands (`Cert.Lib.ConcatPair`), so that the pass
      goes on inside them;
    * a value carried to an outlined function's buffer and back is left as it was (`Cert.Lib.Outlined.ofBuf_toBuf`).
  It leaves an equation between a pure term over the contents at the line's inputs and the goal's right-hand side (closed
  by `rfl` against the same term, or by the lemma that names the term), or closes the goal when the buffer is not written.
-/
import Idealize.ShloMosaic.Lib.StableHlo.Run
import proofs.«137224_j25374666785385_1_alg».proof.Proof.LibOutlined
import proofs.«137224_j25374666785385_1_alg».proof.Proof.LibConcatPair

namespace Cert.Lib.ReadLine

/-- Reads `after ops V (Proc.devRef .tc r)` for a literal list `ops` (possibly several nested `after`s): see the
    module's header. -/
macro "read_line" : tactic =>
  `(tactic| simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.Lib.ConcatPair.concatenate_pair, Cert.Lib.Outlined.ofBuf_toBuf])

end Cert.Lib.ReadLine
-- ==== Proof.KernelStages.lean ====
/-
  The idealized kernel's host stretches read back: what each stretch leaves in the buffer the next region (or the next
  stretch) reads, as one of the graph operations of `Gcn.Stages` applied to the contents the stretch started from, and
  the buffers a stretch does not write left as they were.
    * before the first region: the edges' sources, targets and weights, from the edge list;
    * between the first product and the activation: the first aggregation;
    * between the second product and the row softmax: the second aggregation.
-/
import proofs.«137224_j25374666785385_1_alg».proof.Proof.Gen.KernelIdeal.Frame
import Idealize.ShloMosaic.Lib.StableHlo.Run
import proofs.«137224_j25374666785385_1_alg».proof.Proof.Stages
import proofs.«137224_j25374666785385_1_alg».proof.Proof.LibOutlined
import proofs.«137224_j25374666785385_1_alg».proof.Proof.LibReadLine

set_option maxRecDepth 16384

noncomputable section

namespace Cert.KernelIdeal.HostStages

open Idealize.ShloMosaic Idealize.ShloMosaic.StableHlo Cert.KernelIdeal Cert.KernelIdeal.Gen Gcn.Stages

variable (W : Valuation τ sig (Elt Ideal))

/-! ## Before the first product: the edges

  Three steps: the sources, the targets, the degrees and the two arrays the select takes; the select (an outlined
  function's three operations); the weights from the per-node factor. -/

set_option maxHeartbeats 2000000 in
theorem step0_sources : after (hostOps0 (F := Ideal)) W (Proc.devRef .tc main_v3) = Gcn.Stages.rowOf (W (Proc.devRef .tc main_arg1)) := by
  read_line
  rfl
set_option maxHeartbeats 2000000 in
theorem step0_targets : after (hostOps0 (F := Ideal)) W (Proc.devRef .tc main_v6) = Gcn.Stages.colOf (W (Proc.devRef .tc main_arg1)) := by
  read_line
  rfl
set_option maxHeartbeats 2000000 in
theorem step0_positive :
    after (hostOps0 (F := Ideal)) W (Proc.devRef .tc main_v12) = Gcn.Stages.degreePositive (Gcn.Stages.colOf (W (Proc.devRef .tc main_arg1))) := by
  read_line
  rfl
set_option maxHeartbeats 2000000 in
theorem step0_rsqrt :
    after (hostOps0 (F := Ideal)) W (Proc.devRef .tc main_v13)
      = Host.rsqrt (Gcn.Stages.degree (Gcn.Stages.colOf (W (Proc.devRef .tc main_arg1)))) := by
  read_line
  rfl
set_option maxHeartbeats 2000000 in
theorem step0_ones :
    after (hostOps0 (F := Ideal)) W (Proc.devRef .tc main_v7) = Gcn.Stages.onePerEdge := by
  read_line
  rfl
set_option maxHeartbeats 2000000 in
theorem step0_zero :
    after (hostOps0 (F := Ideal)) W (Proc.devRef .tc main_cst_2) = constant (F := Ideal) S_ .f32 0x00000000#32 := by
  read_line

theorem step1_select :
    after (hostOps0_1 (F := Ideal)) W (Proc.devRef .tc main_v14)
      = Gcn.Stages.whereElse (W (Proc.devRef .tc main_v12)) (W (Proc.devRef .tc main_v13)) (W (Proc.devRef .tc main_cst_2)) := by
  read_line
  rfl
theorem step1_kept (b : Ref sig .tc) (hb : b = main_v3 ∨ b = main_v6 ∨ b = main_v7) :
    after (hostOps0_1 (F := Ideal)) W (Proc.devRef .tc b) = W (Proc.devRef .tc b) := by
  rcases hb with rfl | rfl | rfl <;> read_line

set_option maxHeartbeats 2000000 in
theorem step2_weights :
    after (hostOps0_2 (F := Ideal)) W (Proc.devRef .tc main_v30)
      = Gcn.Stages.edgeWeightFrom (W (Proc.devRef .tc main_v14)) (W (Proc.devRef .tc main_v7)) (W (Proc.devRef .tc main_v3))
          (W (Proc.devRef .tc main_v6)) := by
  read_line
  rfl
set_option maxHeartbeats 2000000 in
theorem step2_kept (b : Ref sig .tc) (hb : b = main_v3 ∨ b = main_v6) :
    after (hostOps0_2 (F := Ideal)) W (Proc.devRef .tc b) = W (Proc.devRef .tc b) := by
  rcases hb with rfl | rfl <;> read_line

theorem sources_read :
    after (hostOps0_2 (F := Ideal)) (after hostOps0_1 (after hostOps0 W)) (Proc.devRef .tc main_v3) = Gcn.Stages.rowOf (W (Proc.devRef .tc main_arg1)) := by
  rw [step2_kept _ main_v3 (Or.inl rfl), step1_kept _ main_v3 (Or.inl rfl), step0_sources]

theorem targets_read :
    after (hostOps0_2 (F := Ideal)) (after hostOps0_1 (after hostOps0 W)) (Proc.devRef .tc main_v6) = Gcn.Stages.colOf (W (Proc.devRef .tc main_arg1)) := by
  rw [step2_kept _ main_v6 (Or.inr rfl), step1_kept _ main_v6 (Or.inr (Or.inl rfl)), step0_targets]

theorem weights_read :
    after (hostOps0_2 (F := Ideal)) (after hostOps0_1 (after hostOps0 W)) (Proc.devRef .tc main_v30)
      = Gcn.Stages.edgeWeight (Gcn.Stages.rowOf (W (Proc.devRef .tc main_arg1))) (Gcn.Stages.colOf (W (Proc.devRef .tc main_arg1))) := by
  rw [step2_weights, step1_select, step1_kept _ main_v3 (Or.inl rfl), step1_kept _ main_v6 (Or.inr (Or.inl rfl)),
    step1_kept _ main_v7 (Or.inr (Or.inr rfl)), step0_sources, step0_targets, step0_positive, step0_rsqrt, step0_zero,
    step0_ones]
  rfl

set_option maxHeartbeats 2000000 in
theorem entry_kept (b : Ref sig .tc) (hb : b = main_arg0 ∨ b = main_arg2 ∨ b = main_arg3 ∨ b = main_arg4 ∨ b = main_arg5) :
    after (hostOps0_2 (F := Ideal)) (after hostOps0_1 (after hostOps0 W)) (Proc.devRef .tc b) = W (Proc.devRef .tc b) := by
  rcases hb with rfl | rfl | rfl | rfl | rfl <;> read_line

/-! ## Between the first product and the activation -/

set_option maxHeartbeats 2000000 in
theorem aggregate64_read :
    after (hostOps1 (F := Ideal)) W (Proc.devRef .tc main_v47)
      = aggregate64 (W (Proc.devRef .tc main_v3)) (W (Proc.devRef .tc main_v6)) (W (Proc.devRef .tc main_v30))
          (W (Proc.devRef .tc main_v31)) (W (Proc.devRef .tc main_arg3)) := by
  read_line
  rfl

set_option maxHeartbeats 2000000 in
theorem first_kept (b : Ref sig .tc) (hb : b = main_v3 ∨ b = main_v6 ∨ b = main_v30 ∨ b = main_arg4 ∨ b = main_arg5) :
    after (hostOps1 (F := Ideal)) W (Proc.devRef .tc b) = W (Proc.devRef .tc b) := by
  rcases hb with rfl | rfl | rfl | rfl | rfl <;> read_line

/-! ## Between the second product and the row softmax -/

set_option maxHeartbeats 2000000 in
theorem aggregate40_read :
    after (hostOps3 (F := Ideal)) W (Proc.devRef .tc main_v65)
      = aggregate40 (W (Proc.devRef .tc main_v3)) (W (Proc.devRef .tc main_v6)) (W (Proc.devRef .tc main_v30))
          (W (Proc.devRef .tc main_v49)) (W (Proc.devRef .tc main_arg5)) := by
  read_line
  rfl

end Cert.KernelIdeal.HostStages

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.LibDenseSteps.lean ====
/-
  Row-wise dense steps, entry by entry over the extended reals, for any sizes.

  A network that alternates whole-graph operations with dense layers applies, row by row, a matrix product, a bias row, the
  positive part (and, at the end, the logarithm of a row softmax). Every such step maps an array of `n` rows to
  an array of `n` rows, and entry `(r, q)` of the result reads row `r` of the input only; so a step of the whole array,
  restricted to a block of consecutive rows, is the same step of that block. That is the whole reason a program that walks
  the rows block by block computes the whole-array step.
    * `product X W` : entry `(r, q)` is `Σ_k X[r,k] · W[k,q]`;
    * `addRow A b`  : entry `(r, q)` is `A[r,q] + b[0,q]`;
    * `relu Y`      : entry `(r, q)` is `max Y[r,q] 0`;
  the logarithm of a row softmax is `Gcn.Layers.logSoftmaxRows`.
-/
import proofs.«137224_j25374666785385_1_alg».proof.Proof.LibRowLayers

noncomputable section

open scoped BigOperators

namespace Gcn.Steps

open Idealize.ShloMosaic Idealize.ShloMosaic.ValueIdx Gcn.Layers

variable {n K H : ℕ}

/-- The matrix product: entry `(r, q)` is `Σ_k X[r,k] · W[k,q]`. -/
def product (X : (⟨2, ![n, K]⟩ : Shape).Idx → EReal) (W : (⟨2, ![K, H]⟩ : Shape).Idx → EReal) :
    (⟨2, ![n, H]⟩ : Shape).Idx → EReal :=
  fun i => ∑ k : Fin K, X (ix2 (i 0) k) * W (ix2 k (i 1))

/-- A one-row array added to every row: entry `(r, q)` is `A[r,q] + b[0,q]`. -/
def addRow (A : (⟨2, ![n, H]⟩ : Shape).Idx → EReal) (b : (⟨2, ![1, H]⟩ : Shape).Idx → EReal) :
    (⟨2, ![n, H]⟩ : Shape).Idx → EReal :=
  fun i => A i + b (ix2 (0 : Fin 1) (i 1))

/-- The positive part of every entry. -/
def relu (Y : (⟨2, ![n, H]⟩ : Shape).Idx → EReal) : (⟨2, ![n, H]⟩ : Shape).Idx → EReal :=
  fun i => max (Y i) 0

theorem product_apply (X : (⟨2, ![n, K]⟩ : Shape).Idx → EReal) (W : (⟨2, ![K, H]⟩ : Shape).Idx → EReal) (r : Fin n)
    (q : Fin H) : product X W (ix2 r q) = ∑ k : Fin K, X (ix2 r k) * W (ix2 k q) := rfl

theorem addRow_apply (A : (⟨2, ![n, H]⟩ : Shape).Idx → EReal) (b : (⟨2, ![1, H]⟩ : Shape).Idx → EReal) (r : Fin n)
    (q : Fin H) : addRow A b (ix2 r q) = A (ix2 r q) + b (ix2 (0 : Fin 1) q) := rfl

theorem relu_apply (Y : (⟨2, ![n, H]⟩ : Shape).Idx → EReal) (r : Fin n) (q : Fin H) :
    relu Y (ix2 r q) = max (Y (ix2 r q)) 0 := rfl

/-! ## Rows of a block are rows of the array

  If block `X` of `m` rows holds, in its row `p`, row `r` of the array `x`, then a step of the block at `(p, q)` is the
  step of the array at `(r, q)`. -/

section Blocks

variable {m : ℕ}

theorem product_block (x : (⟨2, ![n, K]⟩ : Shape).Idx → EReal) (X : (⟨2, ![m, K]⟩ : Shape).Idx → EReal)
    (W : (⟨2, ![K, H]⟩ : Shape).Idx → EReal) (p : Fin m) (r : Fin n) (hX : ∀ k : Fin K, X (ix2 p k) = x (ix2 r k))
    (q : Fin H) : product X W (ix2 p q) = product x W (ix2 r q) := by
  rw [product_apply, product_apply]
  exact Finset.sum_congr rfl fun k _ => by rw [hX k]

theorem addRow_block (a : (⟨2, ![n, H]⟩ : Shape).Idx → EReal) (A : (⟨2, ![m, H]⟩ : Shape).Idx → EReal)
    (b : (⟨2, ![1, H]⟩ : Shape).Idx → EReal) (p : Fin m) (r : Fin n) (hA : ∀ q : Fin H, A (ix2 p q) = a (ix2 r q))
    (q : Fin H) : addRow A b (ix2 p q) = addRow a b (ix2 r q) := by
  rw [addRow_apply, addRow_apply, hA q]

theorem relu_block (y : (⟨2, ![n, H]⟩ : Shape).Idx → EReal) (Y : (⟨2, ![m, H]⟩ : Shape).Idx → EReal) (p : Fin m)
    (r : Fin n) (hY : ∀ q : Fin H, Y (ix2 p q) = y (ix2 r q)) (q : Fin H) : relu Y (ix2 p q) = relu y (ix2 r q) := by
  rw [relu_apply, relu_apply, hY q]

end Blocks

end Gcn.Steps

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.RegionProducts.lean ====
/-
  The two matrix-product regions, each as one whole-array function of its input arrays.

  A region walks the rows of its left operand in 50 blocks of 2000 consecutive rows; at each block it multiplies the
  block by the whole right operand and writes the 2000 product rows back. Entry (r, q) of a matrix product reads row r
  of the left operand only, so the product of a block of rows is that block of rows of the whole product; the 50 blocks
  cover every row (row r lies in block r / 2000), so the output array ends holding the product of the two input arrays.
-/
import proofs.«137224_j25374666785385_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«137224_j25374666785385_1_alg».proof.Proof.LibDenseSteps
import proofs.«137224_j25374666785385_1_alg».proof.Proof.LibDotCols

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem zero_offsets : (![0, 0] : Fin 2 → Nat) = fun _ => 0 := funext fun a => by fin_cases a <;> rfl

/-! ## Region 0: rows of [100000, 256] times [256, 64] -/

/-- The body's value at entry (p, q): the block's row p against the weight's column q. -/
theorem block_product0 (x : Vec Ideal S2000x256 .f32) (w : Vec Ideal S256x64 .f32) (p : Fin 2000) (q : Fin 64) :
    k0_pay1 (F := Ideal) x w (ix2 p q) = Gcn.Steps.product (n := 2000) (K := 256) (H := 64) x w (ix2 p q) := by
  unfold k0_pay1
  exact Cert.Lib.DotCols.matmul_cols_apply dot_S2000x256_S256x64_S2000x64_1_0_0_1_n_n rfl none _ _ p q

/-- When the block's row p is row r of the array and the weight block is the weight array, that is entry (r, q) of the
    arrays' product. -/
theorem block_product_row0 (A : S100000x256.Idx → EReal) (W : S256x64.Idx → EReal) (x : Vec Ideal S2000x256 .f32)
    (w : Vec Ideal S256x64 .f32) (p : Fin 2000) (q : Fin 64) (r : Fin 100000)
    (hx : ∀ k : Fin 256, x (ix2 p k) = A (ix2 r k)) (hw : w = W) :
    k0_pay1 (F := Ideal) x w (ix2 p q) = Gcn.Steps.product (n := 100000) (K := 256) (H := 64) A W (ix2 r q) := by
  subst hw
  exact (block_product0 x w p q).trans (Gcn.Steps.product_block A x w p r hx q)

/-- The block indices over the grid: the left operand and the output move with the point along the rows, the weight
    stays at its one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 2000 t … 2000 t + 1999 of its array. -/
theorem left_block0 (V : (c : Dev nD) → (b : Ref sig .tc) → Buf (Elt Ideal) ((c : Thread nD τ).loc b)) (c : Dev nD)
    (t : Fin cfg0.N) (x : S2000x256.Idx) (k : S100000x256.Idx)
    (hk0 : (k 0).val = 2000 * t.val + (x 0).val) (hk1 : (k 1).val = (x 1).val) :
    (iblk0 (F := Ideal) V c 0 t : Vec Ideal S2000x256 .f32) x = (V c (Pipeline.arrRef spec0 0) : S100000x256.Idx → EReal) k := by
  obtain ⟨e0, e1, -⟩ := block_index0 t
  unfold iblk0
  rw [View.read_apply]
  show (V c (Pipeline.arrRef spec0 0) : S100000x256.Idx → EReal) _ = (V c (Pipeline.arrRef spec0 0) : S100000x256.Idx → EReal) k
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The weight's one block is its whole array, at every point. -/
theorem weight_block0 (V : (c : Dev nD) → (b : Ref sig .tc) → Buf (Elt Ideal) ((c : Thread nD τ).loc b)) (c : Dev nD)
    (t : Fin cfg0.N) :
    (iblk0 (F := Ideal) V c 1 t : Vec Ideal S256x64 .f32) = (V c (Pipeline.arrRef spec0 1) : S256x64.Idx → EReal) := by
  obtain ⟨-, -, e2, e3, -⟩ := block_index0 t
  funext x
  unfold iblk0
  rw [View.read_apply]
  show (V c (Pipeline.arrRef spec0 1) : S256x64.Idx → EReal) _ = (V c (Pipeline.arrRef spec0 1) : S256x64.Idx → EReal) x
  congr 1
  funext a
  apply Fin.ext
  match a with
  | ⟨0, _⟩ => show win0_1.index t (0 : Fin 2) * 256 + 1 * (x 0).val = (x 0).val; rw [e2]; omega
  | ⟨1, _⟩ => show win0_1.index t (1 : Fin 2) * 64 + 1 * (x 1).val = (x 1).val; rw [e3]; omega

/-- What point t writes back is block t of the product of the two input arrays. -/
theorem written0 (V : (c : Dev nD) → (b : Ref sig .tc) → Buf (Elt Ideal) ((c : Thread nD τ).loc b)) (c : Dev nD)
    (t : Fin cfg0.N) :
    (dat0 (F := Ideal) V c).flushed 2 t = ((cfg0.win 2).blk t).view.read (Elt Ideal)
      (Gcn.Steps.product (n := 100000) (K := 256) (H := 64) (V c (Pipeline.arrRef spec0 0) : S100000x256.Idx → EReal)
        (V c (Pipeline.arrRef spec0 1) : S256x64.Idx → EReal)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  obtain ⟨-, -, -, -, e4, e5⟩ := block_index0 t
  have ht : t.val < 50 := lt_of_lt_of_eq t.isLt N_0
  funext j
  rw [View.read_apply]
  obtain ⟨p, q, rfl⟩ : ∃ (p : Fin 2000) (q : Fin 64), j = ix2 p q := ⟨j 0, j 1, eq_ix2 j⟩
  have hi : ((cfg0.win 2).blk t).view.emb (ix2 p q) = (ix2 (⟨2000 * t.val + p.val, by omega⟩ : Fin 100000) q : S100000x64.Idx) := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 64 + 1 * q.val = q.val; rw [e5]; omega
  rw [hi]
  exact block_product_row0 _ _ _ _ p q ⟨2000 * t.val + p.val, by omega⟩
    (fun k => left_block0 V c t (ix2 p k) (ix2 ⟨2000 * t.val + p.val, by omega⟩ k) rfl rfl) (weight_block0 V c t)

/-- An index of the output array is in point t's block iff each coordinate is in the block's range on its axis. -/
theorem mem_block0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v31).slice (win0_2.rect t)).set ↔ _
  rw [View.set_slice_whole, Rect.mem_set_unit]
  exact Iff.rfl

/-- Every row is in some point's block: row r in block r / 2000. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, e4, e5⟩ := block_index0 ⟨(i 0).val / 2000, hlt⟩
  refine ⟨⟨(i 0).val / 2000, hlt⟩, flush0_2 _, ?_⟩
  rw [mem_block0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 64 ≤ (i 1).val ∧ (i 1).val < win0_2.index ⟨(i 0).val / 2000, hlt⟩ (1 : Fin 2) * 64 + 64
    rw [e5]; omega

/-- REGION 0: the output array ends holding the product of the two input arrays. -/
theorem region0 (V : (c : Dev nD) → (b : Ref sig .tc) → Buf (Elt Ideal) ((c : Thread nD τ).loc b)) (c : Dev nD) :
    (dat0 (F := Ideal) V c).arrAt 2 cfg0.N
      = Gcn.Steps.product (n := 100000) (K := 256) (H := 64) (V c (Pipeline.arrRef spec0 0) : S100000x256.Idx → EReal)
          (V c (Pipeline.arrRef spec0 1) : S256x64.Idx → EReal) :=
  (dat0 (F := Ideal) V c).arrAt_eq_of_cover 2 _ (fun t _ => written0 V c t) rows_covered0

/-! ## Region 2: rows of [100000, 64] times [64, 40] -/

/-- The body's value at entry (p, q): the block's row p against the weight's column q (the body first recasts the
    block to its own shape, which changes nothing). -/
theorem block_product2 (x : Vec Ideal S2000x64 .f32) (w : Vec Ideal S64x40 .f32) (p : Fin 2000) (q : Fin 40) :
    k2_pay1 (F := Ideal) x w (ix2 p q) = Gcn.Steps.product (n := 2000) (K := 64) (H := 40) x w (ix2 p q) := by
  unfold k2_pay1
  refine (Cert.Lib.DotCols.matmul_cols_apply dot_S2000x64_S64x40_S2000x40_1_0_0_1_n_n rfl none _ _ p q).trans ?_
  have e : shapeCast S2000x64 x shapeCasts_S2000x64_S2000x64 = x := shapeCast_self x _
  rw [e]
  rfl

/-- When the block's row p is row r of the array and the weight block is the weight array, that is entry (r, q) of the
    arrays' product. -/
theorem block_product_row2 (A : S100000x64.Idx → EReal) (W : S64x40.Idx → EReal) (x : Vec Ideal S2000x64 .f32)
    (w : Vec Ideal S64x40 .f32) (p : Fin 2000) (q : Fin 40) (r : Fin 100000)
    (hx : ∀ k : Fin 64, x (ix2 p k) = A (ix2 r k)) (hw : w = W) :
    k2_pay1 (F := Ideal) x w (ix2 p q) = Gcn.Steps.product (n := 100000) (K := 64) (H := 40) A W (ix2 r q) := by
  subst hw
  exact (block_product2 x w p q).trans (Gcn.Steps.product_block A x w p r hx q)

/-- The block indices over the grid: the left operand and the output move with the point along the rows, the weight
    stays at its one block. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t holds rows 2000 t … 2000 t + 1999 of its array. -/
theorem left_block2 (V : (c : Dev nD) → (b : Ref sig .tc) → Buf (Elt Ideal) ((c : Thread nD τ).loc b)) (c : Dev nD)
    (t : Fin cfg2.N) (x : S2000x64.Idx) (k : S100000x64.Idx)
    (hk0 : (k 0).val = 2000 * t.val + (x 0).val) (hk1 : (k 1).val = (x 1).val) :
    (iblk2 (F := Ideal) V c 0 t : Vec Ideal S2000x64 .f32) x = (V c (Pipeline.arrRef spec2 0) : S100000x64.Idx → EReal) k := by
  obtain ⟨e0, e1, -⟩ := block_index2 t
  unfold iblk2
  rw [View.read_apply]
  show (V c (Pipeline.arrRef spec2 0) : S100000x64.Idx → EReal) _ = (V c (Pipeline.arrRef spec2 0) : S100000x64.Idx → EReal) k
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 64 + 1 * (x 1).val = (k 1).val; rw [e1, hk1]; omega

/-- The weight's one block is its whole array, at every point. -/
theorem weight_block2 (V : (c : Dev nD) → (b : Ref sig .tc) → Buf (Elt Ideal) ((c : Thread nD τ).loc b)) (c : Dev nD)
    (t : Fin cfg2.N) :
    (iblk2 (F := Ideal) V c 1 t : Vec Ideal S64x40 .f32) = (V c (Pipeline.arrRef spec2 1) : S64x40.Idx → EReal) := by
  obtain ⟨-, -, e2, e3, -⟩ := block_index2 t
  funext x
  unfold iblk2
  rw [View.read_apply]
  show (V c (Pipeline.arrRef spec2 1) : S64x40.Idx → EReal) _ = (V c (Pipeline.arrRef spec2 1) : S64x40.Idx → EReal) x
  congr 1
  funext a
  apply Fin.ext
  match a with
  | ⟨0, _⟩ => show win2_1.index t (0 : Fin 2) * 64 + 1 * (x 0).val = (x 0).val; rw [e2]; omega
  | ⟨1, _⟩ => show win2_1.index t (1 : Fin 2) * 40 + 1 * (x 1).val = (x 1).val; rw [e3]; omega

/-- What point t writes back is block t of the product of the two input arrays. -/
theorem written2 (V : (c : Dev nD) → (b : Ref sig .tc) → Buf (Elt Ideal) ((c : Thread nD τ).loc b)) (c : Dev nD)
    (t : Fin cfg2.N) :
    (dat2 (F := Ideal) V c).flushed 2 t = ((cfg2.win 2).blk t).view.read (Elt Ideal)
      (Gcn.Steps.product (n := 100000) (K := 64) (H := 40) (V c (Pipeline.arrRef spec2 0) : S100000x64.Idx → EReal)
        (V c (Pipeline.arrRef spec2 1) : S64x40.Idx → EReal)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S64x40) zero_offsets]
  obtain ⟨-, -, -, -, e4, e5⟩ := block_index2 t
  have ht : t.val < 50 := lt_of_lt_of_eq t.isLt N_2
  funext j
  rw [View.read_apply]
  obtain ⟨p, q, rfl⟩ : ∃ (p : Fin 2000) (q : Fin 40), j = ix2 p q := ⟨j 0, j 1, eq_ix2 j⟩
  have hi : ((cfg2.win 2).blk t).view.emb (ix2 p q) = (ix2 (⟨2000 * t.val + p.val, by omega⟩ : Fin 100000) q : S100000x40.Idx) := by
    funext a
    apply Fin.ext
    match a with
    | ⟨0, _⟩ => show win2_2.index t (0 : Fin 2) * 2000 + 1 * p.val = 2000 * t.val + p.val; rw [e4]; omega
    | ⟨1, _⟩ => show win2_2.index t (1 : Fin 2) * 40 + 1 * q.val = q.val; rw [e5]; omega
  rw [hi]
  exact block_product_row2 _ _ _ _ p q ⟨2000 * t.val + p.val, by omega⟩
    (fun k => left_block2 V c t (ix2 p k) (ix2 ⟨2000 * t.val + p.val, by omega⟩ k) rfl rfl) (weight_block2 V c t)

/-- An index of the output array is in point t's block iff each coordinate is in the block's range on its axis. -/
theorem mem_block2 (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v49).slice (win2_2.rect t)).set ↔ _
  rw [View.set_slice_whole, Rect.mem_set_unit]
  exact Iff.rfl

/-- Every row is in some point's block: row r in block r / 2000. -/
theorem rows_covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := N_2
  have hlt : (i 0).val / 2000 < cfg2.N := by rw [hN]; omega
  obtain ⟨-, -, -, -, e4, e5⟩ := block_index2 ⟨(i 0).val / 2000, hlt⟩
  refine ⟨⟨(i 0).val / 2000, hlt⟩, flush2_2 _, ?_⟩
  rw [mem_block2]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 40 ≤ (i 1).val ∧ (i 1).val < win2_2.index ⟨(i 0).val / 2000, hlt⟩ (1 : Fin 2) * 40 + 40
    rw [e5]; omega

/-- REGION 2: the output array ends holding the product of the two input arrays. -/
theorem region2 (V : (c : Dev nD) → (b : Ref sig .tc) → Buf (Elt Ideal) ((c : Thread nD τ).loc b)) (c : Dev nD) :
    (dat2 (F := Ideal) V c).arrAt 2 cfg2.N
      = Gcn.Steps.product (n := 100000) (K := 64) (H := 40) (V c (Pipeline.arrRef spec2 0) : S100000x64.Idx → EReal)
          (V c (Pipeline.arrRef spec2 1) : S64x40.Idx → EReal) :=
  (dat2 (F := Ideal) V c).arrAt_eq_of_cover 2 _ (fun t _ => written2 V c t) rows_covered2

end Cert.KernelIdeal.RegionValue

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«137224_j25374666785385_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«137224_j25374666785385_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«137224_j25374666785385_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«137224_j25374666785385_1_alg».proof.Proof.LibRowLayers
import proofs.«137224_j25374666785385_1_alg».proof.Proof.LibDotCols
import proofs.«137224_j25374666785385_1_alg».proof.Proof.LibDotColsHost
import proofs.«137224_j25374666785385_1_alg».proof.Proof.LibHostMax
import proofs.«137224_j25374666785385_1_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«137224_j25374666785385_1_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.LibSelu.lean ====
/-
  The scaled exponential linear unit over the extended reals, for an array of any shape.

  `selu x` is, entry by entry, `scale · x` where `0 < x` and `scale · alpha · (exp x − 1)` elsewhere, with `scale` and
  `alpha` the single-precision words `0x3F867D5F` (1.0507…) and `0x3FD62D7D` (1.6732…), kept as words. Two spellings are
  shown to be this function:
    * `host_selu`   — `jax.nn.selu` as it lowers on the host: `scale · where(x > 0, x, alpha · expm1(where(x > 0, 0, x)))`.
                     Where `0 < x` fails the inner selection returns `x`, and `expm1` is `exp − 1` on the extended reals;
    * `kernel_selu` — a kernel body's `scale · where(x > 0, x, alpha · (exp x − 1.0))` over splat scalars, the `1.0` being
                     the word of the real number one.
  The unit reads one entry (`selu_congr`), so the unit of a block of an array is that block of the unit of the array.
-/
import Idealize.ShloMosaic.PureOps.Ideal.Laws
import Idealize.ShloMosaic.Lib.IdealHost

noncomputable section

namespace Gcn.Selu

open Idealize.ShloMosaic

/-- The scaled exponential linear unit, entry by entry: `scale · x` where `0 < x`, `scale · (alpha · (exp x − 1))`
    elsewhere; `scale` and `alpha` are kept as their single-precision words. -/
def selu {s : Shape} (x : s.Idx → EReal) : s.Idx → EReal := fun i =>
  Ideal.ofBits .f32 0x3F867D5F#32 *
    (if 0 < x i then x i else Ideal.ofBits .f32 0x3FD62D7D#32 * (Ideal.exp (x i) - 1))

theorem selu_apply {s : Shape} (x : s.Idx → EReal) (i : s.Idx) :
    selu x i = Ideal.ofBits .f32 0x3F867D5F#32 *
      (if 0 < x i then x i else Ideal.ofBits .f32 0x3FD62D7D#32 * (Ideal.exp (x i) - 1)) := rfl

/-- The unit reads one entry: equal entries of two arrays have equal images. -/
theorem selu_congr {s s' : Shape} (x : s.Idx → EReal) (y : s'.Idx → EReal) (i : s.Idx) (j : s'.Idx) (h : x i = y j) :
    selu x i = selu y j := by
  rw [selu_apply, selu_apply, h]

/-- A selection on "greater than the zero word" is a case split on `0 < x`. -/
theorem select_ogt_zero {α : Type} (x : EReal) (a b : α) :
    Scalar.select (Ideal.cmp .ogt x (Ideal.ofBits .f32 0x00000000#32)) a b = if 0 < x then a else b := by
  rw [Ideal.ofBits_zero_f32]
  unfold Scalar.select Ideal.cmp
  by_cases h : (0 : EReal) < x <;> simp [h]

/-- The host's spelling: `scale · where(x > 0, x, alpha · expm1(where(x > 0, 0, x)))`. Where `0 < x` fails the inner
    selection returns `x`, and `expm1` is `exp − 1`. -/
theorem host_selu {s : Shape} (hb : (⟨0, ![]⟩ : Shape).BroadcastsInDim s ![]) (x : FVec Ideal s .f32) :
      mulf (broadcastInDim s ![] hb (constant (F := Ideal) ⟨0, ![]⟩ .f32 0x3F867D5F#32))
        (select (cmpf .ogt x (broadcastInDim s ![] hb (constant (F := Ideal) ⟨0, ![]⟩ .f32 0x00000000#32))) x
          (mulf (broadcastInDim s ![] hb (id (constant (F := Ideal) ⟨0, ![]⟩ .f32 0x3FD62D7D#32)))
            (Host.expm1 (select (cmpf .ogt x (broadcastInDim s ![] hb (constant (F := Ideal) ⟨0, ![]⟩ .f32 0x00000000#32)))
              (broadcastInDim s ![] hb (id (constant (F := Ideal) ⟨0, ![]⟩ .f32 0x00000000#32))) x))))
      = selu x := by
  funext i
  show Ideal.ofBits .f32 0x3F867D5F#32 *
      Scalar.select (Ideal.cmp .ogt (x i) (Ideal.ofBits .f32 0x00000000#32)) (x i)
        (Ideal.ofBits .f32 0x3FD62D7D#32 *
          (Ideal.exp (Scalar.select (Ideal.cmp .ogt (x i) (Ideal.ofBits .f32 0x00000000#32))
            (Ideal.ofBits .f32 0x00000000#32) (x i)) - 1)) = _
  rw [select_ogt_zero, select_ogt_zero, selu_apply]
  by_cases h : 0 < x i
  · rw [if_pos h, if_pos h]
  · rw [if_neg h, if_neg h, if_neg h]

/-- A kernel body's spelling over splat scalars: `scale · where(x > 0, x, alpha · (exp x − 1.0))`. -/
theorem kernel_selu {s : Shape} (x : FVec Ideal s .f32) :
    mulf (broadcast s (Scalar.ofBits (F := Ideal) .f32 0x3F867D5F#32))
        (select (cmpf .ogt x (broadcast s (Scalar.ofBits (F := Ideal) .f32 0x00000000#32))) x
          (mulf (broadcast s (Scalar.ofBits (F := Ideal) .f32 0x3FD62D7D#32))
            (subf (exp x) (broadcast s (Scalar.ofBits (F := Ideal) .f32 0x3F800000#32)))))
      = selu x := by
  funext i
  show Ideal.ofBits .f32 0x3F867D5F#32 *
      Scalar.select (Ideal.cmp .ogt (x i) (Ideal.ofBits .f32 0x00000000#32)) (x i)
        (Ideal.ofBits .f32 0x3FD62D7D#32 * (Ideal.exp (x i) - Ideal.ofBits .f32 0x3F800000#32)) = _
  rw [select_ogt_zero, Ideal.ofBits_one_f32, selu_apply]

end Gcn.Selu

end
-- ==== Proof.RegionRows.lean ====
/-
  Two row-wise regions of the network read as whole-array functions.

  Each region walks the 100000 rows in 50 blocks of 2000 consecutive rows: point `t` reads block `t` of its input array,
  applies the body, and writes the result to block `t` of its output array. The log-softmax of a row reads that row only,
  and the scaled exponential linear unit reads one entry only, so what a point writes is block `t` of ONE function of the
  whole input array; the blocks cover every row (row `r` is in block `r / 2000`), so the output array after the region
  is that function of the input array.
-/
import proofs.«137224_j25374666785385_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«137224_j25374666785385_1_alg».proof.Proof.LibRowLayers
import proofs.«137224_j25374666785385_1_alg».proof.Proof.LibLogSoftmaxRows
import proofs.«137224_j25374666785385_1_alg».proof.Proof.LibSelu

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Gcn.Selu

/-- The zero offsets of a whole-block access, as the constant function. -/
theorem zero_row_offsets : (![0, 0] : Fin 2 → Nat) = fun _ => 0 := funext fun a => by fin_cases a <;> rfl

/-! ## The log-softmax rows (region 3) -/

/-- The body's payload on a block of rows is the row log-softmax of the block: the block is first cast to its own
    shape, then each row's maximum is taken from −∞, subtracted, exponentiated, summed from zero, and the logarithm of
    the sum subtracted. -/
theorem logSoftmax_payload (x0 : Vec Ideal S2000x40 .f32) :
    k3_pay1 (F := Ideal) x0 = Gcn.Layers.logSoftmaxRows x0 := by
  have e : shapeCast S2000x40 x0 shapeCasts_S2000x40_S2000x40 = x0 := shapeCast_self x0 _
  unfold k3_pay1
  dsimp only
  rw [e]
  exact Gcn.SoftmaxOps.kernel_logSoftmaxRows reduces_S2000x40_S2000 (.inl rfl) rfl rfl shapeCasts_S2000_S2000x1
    broadcasts_S2000x1_S2000x40 x0

/-- An entry of the payload of a block that holds rows `k · 2000, k · 2000 + 1, …` of the array `z`: the row
    log-softmax of `z` at the entry's place in the array. -/
theorem logSoftmax_block_entry (z : S100000x40.Idx → EReal) (X : Vec Ideal S2000x40 .f32) (k : ℕ)
    (hX : ∀ (p : Fin 2000) (q : Fin 40) (r : Fin 100000), r.val = k * 2000 + p.val → X (ix2 p q) = z (ix2 r q))
    (J : S2000x40.Idx) (I : S100000x40.Idx) (h0 : (I 0).val = k * 2000 + (J 0).val) (h1 : (I 1).val = (J 1).val) :
    k3_pay1 (F := Ideal) X J = Gcn.Layers.logSoftmaxRows z I := by
  obtain ⟨p, q, rfl⟩ : ∃ (p : Fin 2000) (q : Fin 40), J = ix2 p q := ⟨J 0, J 1, eq_ix2 J⟩
  obtain ⟨r, q', rfl⟩ : ∃ (r : Fin 100000) (q' : Fin 40), I = ix2 r q' := ⟨I 0, I 1, eq_ix2 I⟩
  have hq : q' = q := Fin.ext h1
  subst hq
  rw [logSoftmax_payload]
  exact Gcn.Layers.logSoftmaxRows_block z X p r (fun j => hX p j r h0) q'

/-- The printed index maps, decided over the grid: the input and the output window sit on the same block of rows,
    block `t` at point `t`, and on the one block of columns. -/
theorem row_blocks3 : ∀ t : Fin cfg3.N, win3_0.index t (0 : Fin 2) = win3_1.index t (0 : Fin 2)
    ∧ win3_0.index t (1 : Fin 2) = 0 ∧ win3_1.index t (1 : Fin 2) = 0
    ∧ win3_1.index t (0 : Fin 2) = t.val :=
  (by decide +kernel : ∀ t : Fin grid3.N, _)

/-- Every block of rows is some point's. -/
theorem rows_onto3 : ∀ q0 : Fin 50, ∃ t : Fin cfg3.N, win3_1.index t (0 : Fin 2) = q0.val ∧ win3_1.index t (1 : Fin 2) = 0 :=
  (by decide +kernel : ∀ q0 : Fin 50, ∃ t : Fin grid3.N, win3_1.index t (0 : Fin 2) = q0.val ∧ win3_1.index t (1 : Fin 2) = 0)

/-- What point `t` writes back is block `t` of the row log-softmax of the input array. -/
theorem flushed3_eq (V : (c : Dev nD) → (b : Ref sig .tc) → Buf (Elt Ideal) ((c : Thread nD τ).loc b)) (c : Dev nD) (t : Fin cfg3.N) :
    (dat3 (F := Ideal) V c).flushed 1 t
      = ((cfg3.win 1).blk t).view.read (Elt Ideal) (Gcn.Layers.logSoftmaxRows (V c (Pipeline.arrRef spec3 0))) := by
  show (cfg3.win 1).cut (grid3.coords t) ((dat3 (F := Ideal) V c).after 1 t) = _
  rw [after3_1]
  unfold out3_1
  rw [View.canon_unit_zero zero_row_offsets]
  simp only [View.ld_unit_zero (S := S2000x40) zero_row_offsets]
  obtain ⟨e0, e1, e2, e3⟩ := row_blocks3 t
  funext j
  refine logSoftmax_block_entry (V c (Pipeline.arrRef spec3 0)) (iblk3 V c 0 t) t.val ?_ _ _ ?_ ?_
  · intro p q r hr
    show V c (Pipeline.arrRef spec3 0) (((cfg3.win 0).blk t).view.emb (ix2 p q)) = _
    refine congrArg _ ?_
    funext a; apply Fin.ext
    match a with
    | ⟨0, _⟩ => show win3_0.index t (0 : Fin 2) * 2000 + 1 * p.val = r.val; omega
    | ⟨1, _⟩ => show win3_0.index t (1 : Fin 2) * 40 + 1 * q.val = q.val; omega
  · show win3_1.index t (0 : Fin 2) * 2000 + 1 * (j 0).val = t.val * 2000 + (j 0).val; omega
  · show win3_1.index t (1 : Fin 2) * 40 + 1 * (j 1).val = (j 1).val; omega

/-- An index of the array is in point `t`'s block iff each coordinate is in the block's range on its axis. -/
theorem mem_rows3 (t : Fin cfg3.N) (i : S100000x40.Idx) :
    i ∈ ((cfg3.win 1).blk t).view.set ↔ ∀ a : Fin 2, win3_1.index t a * S2000x40.size a ≤ (i a).val ∧ (i a).val < win3_1.index t a * S2000x40.size a + S2000x40.size a := by
  show i ∈ ((View.whole main_v66).slice (win3_1.rect t)).set ↔ _
  rw [View.set_slice_whole, Rect.mem_set_unit]
  exact Iff.rfl

/-- Row `r` is in the block of point `r / 2000`: the blocks cover the array. -/
theorem rows_covered3 (i : S100000x40.Idx) :
    ∃ t : Fin cfg3.N, (cfg3.win 1).flush t = true ∧ i ∈ ((cfg3.win 1).blk t).view.set := by
  have hi0 : (i 0).val < 100000 := (i 0).isLt
  have hi1 : (i 1).val < 40 := (i 1).isLt
  obtain ⟨t, q0, q1⟩ := rows_onto3 ⟨(i 0).val / 2000, by omega⟩
  have q0' : win3_1.index t (0 : Fin 2) = (i 0).val / 2000 := q0
  refine ⟨t, flush3_1 t, ?_⟩
  rw [mem_rows3]
  intro a
  match a with
  | ⟨0, _⟩ => show win3_1.index t (0 : Fin 2) * 2000 ≤ (i 0).val ∧ (i 0).val < win3_1.index t (0 : Fin 2) * 2000 + 2000; omega
  | ⟨1, _⟩ => show win3_1.index t (1 : Fin 2) * 40 ≤ (i 1).val ∧ (i 1).val < win3_1.index t (1 : Fin 2) * 40 + 40; omega

/-- REGION 3: the output array after the region is the row log-softmax of the input array as the region finds it. -/
theorem region3 (V : (c : Dev nD) → (b : Ref sig .tc) → Buf (Elt Ideal) ((c : Thread nD τ).loc b)) (c : Dev nD) :
    (Gen.dat3 (F := Ideal) V c).arrAt 1 cfg3.N = Gcn.Layers.logSoftmaxRows (V c (Pipeline.arrRef spec3 0)) :=
  (dat3 (F := Ideal) V c).arrAt_eq_of_cover 1 _ (fun t _ => flushed3_eq V c t) rows_covered3

/-! ## The scaled exponential linear unit (region 1) -/

/-- The body's payload on a block is the unit of the block, entry by entry: the block is first cast to its own shape;
    the body's `1.0` is the word of one. -/
theorem selu_payload (x0 : Vec Ideal S2000x64 .f32) : k1_pay1 (F := Ideal) x0 = selu x0 := by
  have e : shapeCast S2000x64 x0 shapeCasts_S2000x64_S2000x64 = x0 := shapeCast_self x0 _
  unfold k1_pay1
  dsimp only
  rw [e]
  funext i
  show Ideal.ofBits .f32 0x3F867D5F#32 *
      Scalar.select (Ideal.cmp .ogt (x0 i) (Ideal.ofBits .f32 0x00000000#32)) (x0 i)
        (Ideal.ofBits .f32 0x3FD62D7D#32 * (Ideal.exp (x0 i) - Ideal.ofBits .f32 0x3F800000#32)) = _
  rw [select_ogt_zero, Ideal.ofBits_one_f32, selu_apply]

/-- An entry of the payload of a block whose entry `J` is the array's entry `I`: the unit of the array at `I`. -/
theorem selu_block_entry (z : S100000x64.Idx → EReal) (X : Vec Ideal S2000x64 .f32) (J : S2000x64.Idx)
    (I : S100000x64.Idx) (h : X J = z I) : k1_pay1 (F := Ideal) X J = selu z I := by
  rw [selu_payload]
  exact selu_congr X z J I h

/-- The printed index maps, decided over the grid: the input and the output window sit on the same block of rows,
    block `t` at point `t`, and on the one block of columns. -/
theorem row_blocks1 : ∀ t : Fin cfg1.N, win1_0.index t (0 : Fin 2) = win1_1.index t (0 : Fin 2)
    ∧ win1_0.index t (1 : Fin 2) = win1_1.index t (1 : Fin 2) ∧ win1_1.index t (1 : Fin 2) = 0
    ∧ win1_1.index t (0 : Fin 2) = t.val :=
  (by decide +kernel : ∀ t : Fin grid1.N, _)

/-- Every block of rows is some point's. -/
theorem rows_onto1 : ∀ q0 : Fin 50, ∃ t : Fin cfg1.N, win1_1.index t (0 : Fin 2) = q0.val ∧ win1_1.index t (1 : Fin 2) = 0 :=
  (by decide +kernel : ∀ q0 : Fin 50, ∃ t : Fin grid1.N, win1_1.index t (0 : Fin 2) = q0.val ∧ win1_1.index t (1 : Fin 2) = 0)

/-- What point `t` writes back is block `t` of the unit of the input array. -/
theorem flushed1_eq (V : (c : Dev nD) → (b : Ref sig .tc) → Buf (Elt Ideal) ((c : Thread nD τ).loc b)) (c : Dev nD) (t : Fin cfg1.N) :
    (dat1 (F := Ideal) V c).flushed 1 t
      = ((cfg1.win 1).blk t).view.read (Elt Ideal) (selu (V c (Pipeline.arrRef spec1 0))) := by
  show (cfg1.win 1).cut (grid1.coords t) ((dat1 (F := Ideal) V c).after 1 t) = _
  rw [after1_1]
  unfold out1_1
  rw [View.canon_unit_zero zero_row_offsets]
  simp only [View.ld_unit_zero (S := S2000x64) zero_row_offsets]
  obtain ⟨e0, e1, e2, e3⟩ := row_blocks1 t
  funext j
  refine selu_block_entry (V c (Pipeline.arrRef spec1 0)) (iblk1 V c 0 t) _ _ ?_
  show V c (Pipeline.arrRef spec1 0) (((cfg1.win 0).blk t).view.emb j)
    = V c (Pipeline.arrRef spec1 0) (((cfg1.win 1).blk t).view.emb j)
  refine congrArg _ ?_
  funext a; apply Fin.ext
  match a with
  | ⟨0, _⟩ => show win1_0.index t (0 : Fin 2) * 2000 + 1 * (j 0).val = win1_1.index t (0 : Fin 2) * 2000 + 1 * (j 0).val; omega
  | ⟨1, _⟩ => show win1_0.index t (1 : Fin 2) * 64 + 1 * (j 1).val = win1_1.index t (1 : Fin 2) * 64 + 1 * (j 1).val; omega

/-- An index of the array is in point `t`'s block iff each coordinate is in the block's range on its axis. -/
theorem mem_rows1 (t : Fin cfg1.N) (i : S100000x64.Idx) :
    i ∈ ((cfg1.win 1).blk t).view.set ↔ ∀ a : Fin 2, win1_1.index t a * S2000x64.size a ≤ (i a).val ∧ (i a).val < win1_1.index t a * S2000x64.size a + S2000x64.size a := by
  show i ∈ ((View.whole main_v48).slice (win1_1.rect t)).set ↔ _
  rw [View.set_slice_whole, Rect.mem_set_unit]
  exact Iff.rfl

/-- Row `r` is in the block of point `r / 2000`: the blocks cover the array. -/
theorem rows_covered1 (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, q0, q1⟩ := rows_onto1 ⟨(i 0).val / 2000, by omega⟩
  have q0' : win1_1.index t (0 : Fin 2) = (i 0).val / 2000 := q0
  refine ⟨t, flush1_1 t, ?_⟩
  rw [mem_rows1]
  intro a
  match a with
  | ⟨0, _⟩ => show win1_1.index t (0 : Fin 2) * 2000 ≤ (i 0).val ∧ (i 0).val < win1_1.index t (0 : Fin 2) * 2000 + 2000; omega
  | ⟨1, _⟩ => show win1_1.index t (1 : Fin 2) * 64 ≤ (i 1).val ∧ (i 1).val < win1_1.index t (1 : Fin 2) * 64 + 64; omega

/-- REGION 1: the output array after the region is the unit of the input array as the region finds it. -/
theorem region1 (V : (c : Dev nD) → (b : Ref sig .tc) → Buf (Elt Ideal) ((c : Thread nD τ).loc b)) (c : Dev nD) :
    (Gen.dat1 (F := Ideal) V c).arrAt 1 cfg1.N = selu (V c (Pipeline.arrRef spec1 0)) :=
  (dat1 (F := Ideal) V c).arrAt_eq_of_cover 1 _ (fun t _ => flushed1_eq V c t) rows_covered1

end Cert.KernelIdeal.RegionValue

end
-- ==== Proof.Forward.lean ====
/-
  The two-layer graph convolution as ONE function of its six argument arrays, over the extended reals:

      logSoftmaxRows ( Â · selu( Â · (X · W₁) + b₁ ) · W₂ + b₂ )

  where `Â · P + b` is the aggregation of `Gcn.Stages` — every edge `s → t` (the given edges and one self-loop per node)
  adds `P[s] / √(deg s · deg t)` to row `t`, then the bias row is added —, `selu` the scaled exponential linear unit entry
  by entry, and the last step the logarithm of each row's softmax. Both programs are shown to end with their result
  array at this function of their arguments.
-/
import proofs.«137224_j25374666785385_1_alg».proof.Proof.Stages
import proofs.«137224_j25374666785385_1_alg».proof.Proof.LibDenseSteps
import proofs.«137224_j25374666785385_1_alg».proof.Proof.LibRowLayers
import proofs.«137224_j25374666785385_1_alg».proof.Proof.LibSelu

noncomputable section

namespace Gcn

open Idealize.ShloMosaic Cert.KernelIdeal Gcn.Stages

/-- The network's output from its inputs: node features `x`, edge list `ei`, and the two layers' weights and biases. -/
def forward (x : FVec Ideal S100000x256 .f32) (ei : IVec S2x1600000 32) (W₁ : FVec Ideal S256x64 .f32)
    (b₁ : FVec Ideal S64 .f32) (W₂ : FVec Ideal S64x40 .f32) (b₂ : FVec Ideal S40 .f32) : FVec Ideal S100000x40 .f32 :=
  Gcn.Layers.logSoftmaxRows (n := 100000) (C := 40)
    (aggregate40 (rowOf ei) (colOf ei) (edgeWeight (rowOf ei) (colOf ei))
      (Gcn.Steps.product (n := 100000) (K := 64) (H := 40)
        (Gcn.Selu.selu
          (aggregate64 (rowOf ei) (colOf ei) (edgeWeight (rowOf ei) (colOf ei))
            (Gcn.Steps.product (n := 100000) (K := 256) (H := 64) x W₁) b₁))
        W₂)
      b₂)

end Gcn

end
-- ==== Proof.KernelValue.lean ====
/-
  The idealized kernel's result array, in closed form: the contents the last region leaves in it are `Gcn.forward` of
  the six argument arrays as launched.

  The buffer contents are followed from the launch through @main's nine segments. A host stretch is one of the graph
  operations applied to what it found (`HostStages`); a region leaves in its output array one whole-array function of
  its input arrays (`RegionValue`: the two dense products, the activation, the row softmax) and every other buffer as it
  found it; a buffer nobody writes — the edge sources, targets and weights once computed, the arguments — is carried
  along unchanged.
-/
import proofs.«137224_j25374666785385_1_alg».proof.Proof.KernelStages
import proofs.«137224_j25374666785385_1_alg».proof.Proof.RegionProducts
import proofs.«137224_j25374666785385_1_alg».proof.Proof.RegionRows
import proofs.«137224_j25374666785385_1_alg».proof.Proof.Forward

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.KernelIdeal.HostStages Cert.KernelIdeal.RegionValue Gcn.Stages Gcn.Selu

variable (m : (ℓ : Loc nD τ sig) → Buf (Elt Ideal) ℓ) (ρ : Dev nD → PrngReg) (c : Dev nD)

/-! ## Up to the first region: the edges, and the arguments untouched -/

theorem arg_at_entry (b : Ref sig .tc) (hb : b = main_arg0 ∨ b = main_arg2 ∨ b = main_arg3 ∨ b = main_arg4 ∨ b = main_arg5) :
    W3 m ρ c (Proc.devRef .tc b) = m ((c : Thread nD τ).loc b) :=
  entry_kept (W0 m ρ c) b hb

theorem sources_at_entry : W3 m ρ c (Proc.devRef .tc main_v3) = rowOf (m ((c : Thread nD τ).loc main_arg1)) := sources_read (W0 m ρ c)
theorem targets_at_entry : W3 m ρ c (Proc.devRef .tc main_v6) = colOf (m ((c : Thread nD τ).loc main_arg1)) := targets_read (W0 m ρ c)
theorem weights_at_entry :
    W3 m ρ c (Proc.devRef .tc main_v30) = edgeWeight (rowOf (m ((c : Thread nD τ).loc main_arg1))) (colOf (m ((c : Thread nD τ).loc main_arg1))) := weights_read (W0 m ρ c)

/-! ## The first product -/

theorem product1 :
    W4 m ρ c (Proc.devRef .tc main_v31)
      = Gcn.Steps.product (n := 100000) (K := 256) (H := 64) (m ((c : Thread nD τ).loc main_arg0)) (m ((c : Thread nD τ).loc main_arg2)) := by
  rw [← arg_at_entry m ρ c main_arg0 (Or.inl rfl), ← arg_at_entry m ρ c main_arg2 (Or.inr (Or.inl rfl))]
  exact (W4_arr m ρ c 2).trans (region0 (V3 m ρ) c)

/-! ## The first aggregation -/

theorem aggregate1 :
    W5 m ρ c (Proc.devRef .tc main_v47)
      = aggregate64 (rowOf (m ((c : Thread nD τ).loc main_arg1))) (colOf (m ((c : Thread nD τ).loc main_arg1)))
          (edgeWeight (rowOf (m ((c : Thread nD τ).loc main_arg1))) (colOf (m ((c : Thread nD τ).loc main_arg1))))
          (Gcn.Steps.product (n := 100000) (K := 256) (H := 64) (m ((c : Thread nD τ).loc main_arg0)) (m ((c : Thread nD τ).loc main_arg2)))
          (m ((c : Thread nD τ).loc main_arg3)) := by
  refine (aggregate64_read (W4 m ρ c)).trans ?_
  rw [W4_of_ne m ρ c main_v3 (by decide), W4_of_ne m ρ c main_v6 (by decide), W4_of_ne m ρ c main_v30 (by decide),
    W4_of_ne m ρ c main_arg3 (by decide), product1, sources_at_entry, targets_at_entry, weights_at_entry,
    arg_at_entry m ρ c main_arg3 (Or.inr (Or.inr (Or.inl rfl)))]

/-- A buffer the first two segments after the entry leave alone. -/
theorem carried5 (b : Ref sig .tc) (hb : b = main_v3 ∨ b = main_v6 ∨ b = main_v30 ∨ b = main_arg4 ∨ b = main_arg5) :
    W5 m ρ c (Proc.devRef .tc b) = W3 m ρ c (Proc.devRef .tc b) := by
  refine (first_kept (W4 m ρ c) b hb).trans ?_
  rcases hb with rfl | rfl | rfl | rfl | rfl <;> exact W4_of_ne m ρ c _ (by decide)

/-! ## The activation -/

theorem activation :
    W6 m ρ c (Proc.devRef .tc main_v48)
      = selu (aggregate64 (rowOf (m ((c : Thread nD τ).loc main_arg1))) (colOf (m ((c : Thread nD τ).loc main_arg1)))
          (edgeWeight (rowOf (m ((c : Thread nD τ).loc main_arg1))) (colOf (m ((c : Thread nD τ).loc main_arg1))))
          (Gcn.Steps.product (n := 100000) (K := 256) (H := 64) (m ((c : Thread nD τ).loc main_arg0)) (m ((c : Thread nD τ).loc main_arg2)))
          (m ((c : Thread nD τ).loc main_arg3))) := by
  rw [← aggregate1]
  exact (W6_arr m ρ c 1).trans (region1 (V5 m ρ) c)

theorem carried6 (b : Ref sig .tc) (hb : b = main_v3 ∨ b = main_v6 ∨ b = main_v30 ∨ b = main_arg4 ∨ b = main_arg5) :
    W6 m ρ c (Proc.devRef .tc b) = W3 m ρ c (Proc.devRef .tc b) := by
  refine Eq.trans ?_ (carried5 m ρ c b hb)
  rcases hb with rfl | rfl | rfl | rfl | rfl <;> exact W6_of_ne m ρ c _ (by decide)

/-! ## The second product -/

theorem product2 :
    W7 m ρ c (Proc.devRef .tc main_v49)
      = Gcn.Steps.product (n := 100000) (K := 64) (H := 40)
          (selu (aggregate64 (rowOf (m ((c : Thread nD τ).loc main_arg1))) (colOf (m ((c : Thread nD τ).loc main_arg1)))
            (edgeWeight (rowOf (m ((c : Thread nD τ).loc main_arg1))) (colOf (m ((c : Thread nD τ).loc main_arg1))))
            (Gcn.Steps.product (n := 100000) (K := 256) (H := 64) (m ((c : Thread nD τ).loc main_arg0)) (m ((c : Thread nD τ).loc main_arg2)))
            (m ((c : Thread nD τ).loc main_arg3))))
          (m ((c : Thread nD τ).loc main_arg4)) := by
  rw [← activation, ← arg_at_entry m ρ c main_arg4 (Or.inr (Or.inr (Or.inr (Or.inl rfl)))),
    ← carried6 m ρ c main_arg4 (Or.inr (Or.inr (Or.inr (Or.inl rfl))))]
  exact (W7_arr m ρ c 2).trans (region2 (V6 m ρ) c)

theorem carried7 (b : Ref sig .tc) (hb : b = main_v3 ∨ b = main_v6 ∨ b = main_v30 ∨ b = main_arg5) :
    W7 m ρ c (Proc.devRef .tc b) = W3 m ρ c (Proc.devRef .tc b) := by
  refine Eq.trans ?_ (carried6 m ρ c b (by rcases hb with h | h | h | h <;> simp [h]))
  rcases hb with rfl | rfl | rfl | rfl <;> exact W7_of_ne m ρ c _ (by decide)

/-! ## The second aggregation and the row softmax -/

theorem aggregate2 :
    W8 m ρ c (Proc.devRef .tc main_v65)
      = aggregate40 (rowOf (m ((c : Thread nD τ).loc main_arg1))) (colOf (m ((c : Thread nD τ).loc main_arg1)))
          (edgeWeight (rowOf (m ((c : Thread nD τ).loc main_arg1))) (colOf (m ((c : Thread nD τ).loc main_arg1))))
          (Gcn.Steps.product (n := 100000) (K := 64) (H := 40)
            (selu (aggregate64 (rowOf (m ((c : Thread nD τ).loc main_arg1))) (colOf (m ((c : Thread nD τ).loc main_arg1)))
              (edgeWeight (rowOf (m ((c : Thread nD τ).loc main_arg1))) (colOf (m ((c : Thread nD τ).loc main_arg1))))
              (Gcn.Steps.product (n := 100000) (K := 256) (H := 64) (m ((c : Thread nD τ).loc main_arg0)) (m ((c : Thread nD τ).loc main_arg2)))
              (m ((c : Thread nD τ).loc main_arg3))))
            (m ((c : Thread nD τ).loc main_arg4)))
          (m ((c : Thread nD τ).loc main_arg5)) := by
  refine (aggregate40_read (W7 m ρ c)).trans ?_
  rw [carried7 m ρ c main_v3 (Or.inl rfl), carried7 m ρ c main_v6 (Or.inr (Or.inl rfl)),
    carried7 m ρ c main_v30 (Or.inr (Or.inr (Or.inl rfl))), carried7 m ρ c main_arg5 (Or.inr (Or.inr (Or.inr rfl))),
    product2, sources_at_entry, targets_at_entry, weights_at_entry,
    arg_at_entry m ρ c main_arg5 (Or.inr (Or.inr (Or.inr (Or.inr rfl))))]

/-- The result array after the last region. -/
theorem result_value :
    W9 m ρ c (Proc.devRef .tc main_v66)
      = Gcn.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Gcn.forward
  rw [← aggregate2]
  exact (W9_arr m ρ c 1).trans (region3 (V8 m ρ) c)

end Cert.KernelIdeal.Result

end
-- ==== Proof.RefOps.lean ====
/-
  The reference program's @main as seven consecutive lines of host operations, in program order, each outlined function's
  operations written at its call over the call's own buffers. Cut where the two programs differ in how they compute the
  same thing: the two dense products, the activation and the final row softmax stand alone; the three lines between
  them are the graph operations both programs share word for word.
-/
import proofs.«137224_j25374666785385_1_alg».proof.Proof.Gen.ReferenceIdeal
import Idealize.ShloMosaic.Lib.StableHlo.Run

noncomputable section

namespace Cert.ReferenceIdeal.RefOps

open Idealize.ShloMosaic Idealize.ShloMosaic.TcCoe Idealize.SL.Sem Cert.ReferenceIdeal Cert.ReferenceIdeal.Facts₀ Cert.ReferenceIdeal.Facts

variable {F : FTy → Type} [FloatOps F]

/-- The edge lists with a self-loop appended to each node (sources, targets), the in-degree of every node as a scatter-add of ones along the targets, its reciprocal square root where positive, and the weight of every edge: the product of the two end nodes' factors. -/
abbrev segA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The first dense product: the node features times the first weight matrix. -/
abbrev segDot1 : List (HloOp τ sig (Elt F)) :=
  [ StableHlo.binary main_arg0 main_arg2 main_v31 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) ]

/-- The first aggregation: every edge carries its weight times its source row of the product; the rows are summed into the edge's target node; the first bias row is added. -/
abbrev segB : List (HloOp τ sig (Elt F)) :=
  [ StableHlo.unary main_v30 main_v32 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v31 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v32 main_v40 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v40 main_v39 main_v41 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)) ]

/-- The scaled exponential linear unit, entry by entry, as the reference's outlined functions spell it. -/
abbrev segSelu : List (HloOp τ sig (Elt F)) :=
  [ StableHlo.TRef.nullary main_call1.cst (constant S_ .f32 0x3FD62D7D#32),
    StableHlo.TRef.nullary main_call1.call0.cst (constant S_ .f32 0x00000000#32),
    StableHlo.TRef.unary main_call1.call0.cst main_call1.call0.v0 (broadcastInDim S100000x64 ![] bcast_S_S100000x64),
    StableHlo.TRef.binary (.of main_v47 : StableHlo.TRef sig ⟨S100000x64, .f32⟩) main_call1.call0.v0 main_call1.call0.v1 (cmpf .ogt),
    StableHlo.TRef.nullary main_call1.call0.cst_0 (constant S_ .f32 0x00000000#32),
    StableHlo.TRef.unary main_call1.call0.cst_0 main_call1.call0.v2 (broadcastInDim S100000x64 ![] bcast_S_S100000x64),
    StableHlo.TRef.binary (.of main_v47 : StableHlo.TRef sig ⟨S100000x64, .f32⟩) main_call1.call0.v2 main_call1.call0.v3 (cmpf .ogt),
    StableHlo.TRef.nullary main_call1.call0.cst_1 (constant S_ .f32 0x00000000#32),
    StableHlo.TRef.unary main_call1.call0.cst_1 main_call1.call0.call0.v0 id,
    StableHlo.TRef.unary main_call1.call0.call0.v0 main_call1.call0.call0.v1 (broadcastInDim S100000x64 ![] bcast_S_S100000x64),
    StableHlo.TRef.ternary main_call1.call0.v3 main_call1.call0.call0.v1 (.of main_v47 : StableHlo.TRef sig ⟨S100000x64, .f32⟩) main_call1.call0.call0.v2 select,
    StableHlo.TRef.unary main_call1.call0.call0.v2 main_call1.call0.v5 Host.expm1,
    StableHlo.TRef.unary main_call1.cst main_call1.call0.v6 id,
    StableHlo.TRef.unary main_call1.call0.v6 main_call1.call0.v7 (broadcastInDim S100000x64 ![] bcast_S_S100000x64),
    StableHlo.TRef.binary main_call1.call0.v7 main_call1.call0.v5 main_call1.call0.v8 mulf,
    StableHlo.TRef.ternary main_call1.call0.v1 (.of main_v47 : StableHlo.TRef sig ⟨S100000x64, .f32⟩) main_call1.call0.v8 main_call1.call0.call1.v0 select,
    StableHlo.TRef.nullary main_call1.cst_0 (constant S_ .f32 0x3F867D5F#32),
    StableHlo.TRef.unary main_call1.cst_0 main_call1.v1 (broadcastInDim S100000x64 ![] bcast_S_S100000x64),
    StableHlo.TRef.binary main_call1.v1 main_call1.call0.call1.v0 main_call1.v2 mulf ]

/-- The second dense product. -/
abbrev segDot2 : List (HloOp τ sig (Elt F)) :=
  [ StableHlo.binary main_v48 main_arg4 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- The second aggregation, of the narrower rows, and the second bias row. -/
abbrev segC : List (HloOp τ sig (Elt F)) :=
  [ StableHlo.unary main_v30 main_v50 (broadcastInDim S1700000x1 ![0] bcast_S1700000_S1700000x1_0 : (⟨S1700000, .f32⟩ : BufTy).Contents (Elt F) → (⟨S1700000x1, .f32⟩ : BufTy).Contents (Elt F)),
    StableHlo.nullary main_c_9 (constantI S_ 32 0#32),
    StableHlo.unary main_c_9 main_v51 (broadcastInDim S1700000 ![] bcast_S_S1700000 : (⟨S_, .i32⟩ : BufTy).Contents (Elt F) → (⟨S1700000, .i32⟩ : BufTy).Contents (Elt F)),
    StableHlo.binary main_v3 main_v51 main_v52 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v53 (broadcastInDim S1700000 ![] bcast_S_S1700000 : (⟨S_, .i32⟩ : BufTy).Contents (Elt F) → (⟨S1700000, .i32⟩ : BufTy).Contents (Elt F)),
    StableHlo.binary main_v3 main_v53 main_v54 (addi : (⟨S1700000, .i32⟩ : BufTy).Contents (Elt F) → (⟨S1700000, .i32⟩ : BufTy).Contents (Elt F) → (⟨S1700000, .i32⟩ : BufTy).Contents (Elt F)),
    StableHlo.ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v55 main_v56 (broadcastInDim S1700000x1 ![0] bcast_S1700000_S1700000x1_0 : (⟨S1700000, .i32⟩ : BufTy).Contents (Elt F) → (⟨S1700000x1, .i32⟩ : BufTy).Contents (Elt F)),
    StableHlo.binary main_v49 main_v56 main_v57 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v50 main_v58 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v58 main_v57 main_v59 (mulf : (⟨S1700000x40, .f32⟩ : BufTy).Contents (Elt F) → (⟨S1700000x40, .f32⟩ : BufTy).Contents (Elt F) → (⟨S1700000x40, .f32⟩ : BufTy).Contents (Elt F)),
    StableHlo.nullary main_cst_11 (constant S_ .f32 0x00000000#32),
    StableHlo.unary main_cst_11 main_v60 (broadcastInDim S100000x40 ![] bcast_S_S100000x40 : (⟨S_, .f32⟩ : BufTy).Contents (Elt F) → (⟨S100000x40, .f32⟩ : BufTy).Contents (Elt F)),
    StableHlo.unary main_v6 main_v61 (broadcastInDim S1700000x1 ![0] bcast_S1700000_S1700000x1_0 : (⟨S1700000, .i32⟩ : BufTy).Contents (Elt F) → (⟨S1700000x1, .i32⟩ : BufTy).Contents (Elt F)),
    StableHlo.ternary main_v60 main_v61 main_v59 main_v62 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_arg5 main_v63 (broadcastInDim S1x40 ![1] bcast_S40_S1x40_1 : (⟨S40, .f32⟩ : BufTy).Contents (Elt F) → (⟨S1x40, .f32⟩ : BufTy).Contents (Elt F)),
    StableHlo.unary main_v63 main_v64 (broadcastInDim S100000x40 ![0, 1] bcast_S1x40_S100000x40_0_1 : (⟨S1x40, .f32⟩ : BufTy).Contents (Elt F) → (⟨S100000x40, .f32⟩ : BufTy).Contents (Elt F)),
    StableHlo.binary main_v62 main_v64 main_v65 (addf : (⟨S100000x40, .f32⟩ : BufTy).Contents (Elt F) → (⟨S100000x40, .f32⟩ : BufTy).Contents (Elt F) → (⟨S100000x40, .f32⟩ : BufTy).Contents (Elt F)) ]

/-- The logarithm of each row's softmax, as the reference's outlined function spells it. -/
abbrev segLsm : List (HloOp τ sig (Elt F)) :=
  [ StableHlo.TRef.nullary main_call2.cst (constant S_ .f32 0xFF800000#32),
    StableHlo.TRef.binary (.of main_v65 : StableHlo.TRef sig ⟨S100000x40, .f32⟩) main_call2.cst main_call2.v0 (fun x v => Host.reduce FloatOps.maximumf x v reducesTo_S100000x40_S100000_d1 h_S_),
    StableHlo.TRef.nullary main_call2.cst_0 (constant S_ .f32 0xFF800000#32),
    StableHlo.TRef.unary main_call2.cst_0 main_call2.v1 (broadcastInDim S100000 ![] bcast_S_S100000),
    StableHlo.TRef.binary main_call2.v1 main_call2.v0 main_call2.v2 maximumf,
    StableHlo.TRef.unary main_call2.v2 main_call2.v3 (broadcastInDim S100000x1 ![0] bcast_S100000_S100000x1_0),
    StableHlo.TRef.unary main_call2.v3 main_call2.v4 (broadcastInDim S100000x40 ![0, 1] bcast_S100000x1_S100000x40_0_1),
    StableHlo.TRef.binary (.of main_v65 : StableHlo.TRef sig ⟨S100000x40, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S100000x40_S100000_d1 h_S_),
    StableHlo.TRef.unary main_call2.v7 main_call2.v8 (broadcastInDim S100000x1 ![0] bcast_S100000_S100000x1_0),
    StableHlo.TRef.unary main_call2.v8 main_call2.v9 Host.log,
    StableHlo.TRef.unary main_call2.v9 main_call2.v10 (broadcastInDim S100000x40 ![0, 1] bcast_S100000x1_S100000x40_0_1),
    StableHlo.TRef.binary main_call2.v5 main_call2.v10 main_call2.v11 subf ]

/-- The whole of @main, in order. -/
abbrev ops : List (HloOp τ sig (Elt F)) :=
  segA ++ (segDot1 ++ (segB ++ (segSelu ++ (segDot2 ++ (segC ++ segLsm)))))

end Cert.ReferenceIdeal.RefOps

end
-- ==== Proof.RefRun.lean ====
/-
  The reference program's @main is its line of host operations, and its run read back.

  @main is printed as two windows run one after the other, and calls three outlined functions (a select against a
  broadcast scalar; the scaled exponential linear unit, which calls the exponential linear unit, which calls two
  selects; the logarithm of the softmax). A call means the callee's body on the operands, each value of the body
  in the buffer the call's record names for it. Unfolding the six bodies at their call sites and re-associating
  the sequencing turns each window into one straight line of operations: the first window is the first four of the
  seven listed stretches in a row, the second window the last three. The library's theorem on straight lines then
  gives: every weakly fair execution terminates with every buffer at the fold of the operations' results over the
  launch contents; and the fold over the whole line is the fold over the seven stretches in turn.
-/
import proofs.«137224_j25374666785385_1_alg».proof.Proof.RefOps
import Idealize.ShloMosaic.Lib.StableHlo.Run
import proofs.«137224_j25374666785385_1_alg».proof.Proof.LibOutlined

noncomputable section

namespace Cert.ReferenceIdeal.RefRun

open Idealize.ShloMosaic Idealize.ShloMosaic.TcCoe Idealize.ShloMosaic.StableHlo Idealize.SL.Sem
open Cert.ReferenceIdeal Cert.ReferenceIdeal.RefOps

variable {F : FTy → Type} [FloatOps F]

/-! ## @main is that line -/

-- eighty binds re-associated in the first window: the rewrite under the chain recurses once per statement
set_option maxRecDepth 8192 in
set_option maxHeartbeats 1000000 in
/-- The first window is the first four stretches in a row: the bodies of the select, of the scaled exponential
    linear unit, of the exponential linear unit and of its two selects unfolded at their calls, and the sequencing
    re-associated, both sides are one chain of steps. -/
theorem part0_eq (c : Dev nD) : main_part0 (F := F) c = seq (segA ++ (segDot1 ++ (segB ++ segSelu))) := by
  simp only [main_part0, fn_where.body, fn_selu.body, fn_elu.body, fn_where_0.body, fn_where_1.body,
    segA, segDot1, segB, segSelu, List.cons_append, List.nil_append, seq, bind_assoc, pure_bind]

set_option maxRecDepth 8192 in
set_option maxHeartbeats 1000000 in
/-- The second window is the last three stretches in a row, the body of the logarithm of the softmax unfolded at
    its call. -/
theorem part1_eq (c : Dev nD) : main_part1 (F := F) c = seq (segDot2 ++ (segC ++ segLsm)) := by
  simp only [main_part1, fn_log_softmax.body, segDot2, segC, segLsm, List.cons_append, List.nil_append,
    seq, bind_assoc, pure_bind]

/-- @main runs the two windows one after the other: the whole line. -/
theorem main_eq (c : Dev nD) : main (F := F) c = seq RefOps.ops := by
  have e : (RefOps.ops : List (HloOp τ sig (Elt F)))
      = (segA ++ (segDot1 ++ (segB ++ segSelu))) ++ (segDot2 ++ (segC ++ segLsm)) := by
    simp only [RefOps.ops, List.append_assoc]
  rw [e, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem segA_sub : (segA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
theorem segDot1_sub : (segDot1 : List (HloOp τ sig (Elt F))).Forall fun op => op.bufs ⊆ tcRefs τ sig :=
  binary_bufs_sub ..
theorem segB_sub : (segB : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩
theorem segSelu_sub : (segSelu : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    unary_bufs_sub .., unary_bufs_sub .., binary_bufs_sub .., ternary_bufs_sub .., nullary_bufs_sub .., unary_bufs_sub ..,
    binary_bufs_sub ..⟩
theorem segDot2_sub : (segDot2 : List (HloOp τ sig (Elt F))).Forall fun op => op.bufs ⊆ tcRefs τ sig :=
  binary_bufs_sub ..
theorem segC_sub : (segC : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩
theorem segLsm_sub : (segLsm : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops_sub : (RefOps.ops : List (HloOp τ sig (Elt F))).Forall fun op => op.bufs ⊆ tcRefs τ sig :=
  List.forall_append.2 ⟨segA_sub, List.forall_append.2 ⟨segDot1_sub, List.forall_append.2 ⟨segB_sub,
    List.forall_append.2 ⟨segSelu_sub, List.forall_append.2 ⟨segDot2_sub, List.forall_append.2 ⟨segC_sub, segLsm_sub⟩⟩⟩⟩⟩⟩

theorem segA_fresh : ∀ op ∈ (segA : List (HloOp τ sig (Elt F))), op.fresh = ∅ := by
  intro _ h; (repeat (cases h with | head => rfl | tail _ h => ?_)); exact nomatch h
theorem segDot1_fresh : ∀ op ∈ (segDot1 : List (HloOp τ sig (Elt F))), op.fresh = ∅ := by
  intro _ h; (repeat (cases h with | head => rfl | tail _ h => ?_)); exact nomatch h
theorem segB_fresh : ∀ op ∈ (segB : List (HloOp τ sig (Elt F))), op.fresh = ∅ := by
  intro _ h; (repeat (cases h with | head => rfl | tail _ h => ?_)); exact nomatch h
theorem segSelu_fresh : ∀ op ∈ (segSelu : List (HloOp τ sig (Elt F))), op.fresh = ∅ := by
  intro _ h; (repeat (cases h with | head => rfl | tail _ h => ?_)); exact nomatch h
theorem segDot2_fresh : ∀ op ∈ (segDot2 : List (HloOp τ sig (Elt F))), op.fresh = ∅ := by
  intro _ h; (repeat (cases h with | head => rfl | tail _ h => ?_)); exact nomatch h
theorem segC_fresh : ∀ op ∈ (segC : List (HloOp τ sig (Elt F))), op.fresh = ∅ := by
  intro _ h; (repeat (cases h with | head => rfl | tail _ h => ?_)); exact nomatch h
theorem segLsm_fresh : ∀ op ∈ (segLsm : List (HloOp τ sig (Elt F))), op.fresh = ∅ := by
  intro _ h; (repeat (cases h with | head => rfl | tail _ h => ?_)); exact nomatch h

theorem ops_fresh : ∀ op ∈ (RefOps.ops : List (HloOp τ sig (Elt F))), op.fresh = ∅ := by
  intro op h
  simp only [RefOps.ops, List.mem_append] at h
  rcases h with h | h | h | h | h | h | h
  exacts [segA_fresh op h, segDot1_fresh op h, segB_fresh op h, segSelu_fresh op h, segDot2_fresh op h,
    segC_fresh op h, segLsm_fresh op h]

/-! ## The contents after the line, stretch by stretch -/

/-- The contents after the whole line are the contents after the seven stretches in turn. -/
theorem after_ops (V : Valuation τ sig (Elt F)) :
    after RefOps.ops V
      = after segLsm (after segC (after segDot2 (after segSelu (after segB (after segDot1 (after segA V)))))) := by
  simp only [RefOps.ops, Cert.Lib.Outlined.after_append]

/-! ## The run -/

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after RefOps.ops (launchContents m c) (b : DevRef τ sig) :=
  run_seq scopedRefs_eq scopedSems_eq defs main (fun _ => RefOps.ops) main_eq (fun _ => ops_sub) m ρ
    (fun _ => ops_fresh)

end Cert.ReferenceIdeal.RefRun

end
-- ==== Proof.LibDenseStepsHost.lean ====
/-
  The three dense steps of the network as the reference program spells them on whole arrays.

  The reference works on whole arrays at once. It forms a matrix product with a contraction of the left factor's
  columns against the right factor's rows; it adds a bias by first setting a vector of `H` entries as a one-row array
  and then repeating that row over all `n` rows; and it takes the positive part as a maximum with the number zero
  repeated over the whole array. Read at one entry `(r, q)`, over the extended reals, these are
  `Σ_k X[r,k] · W[k,q]`, `A[r,q] + b[q]` and `max Y[r,q] 0`: the entry-by-entry steps of the specification. The sizes
  play no part, so the statements hold for any number of rows and any widths.
-/
import proofs.«137224_j25374666785385_1_alg».proof.Proof.LibDenseSteps
import proofs.«137224_j25374666785385_1_alg».proof.Proof.LibRowLayerOps

noncomputable section

open scoped BigOperators

namespace Gcn.DenseHost

open Idealize.ShloMosaic Idealize.ShloMosaic.ValueIdx Gcn.Layers Gcn.LayerOps Gcn.Steps

variable {n K H : ℕ}

/-- The whole-array matrix product with the plain dimension numbers is the specification's product: entry `(r, q)` is
    `Σ_k X[r,k] · W[k,q]`. -/
theorem product_host (D : DotDims ⟨2, ![n, K]⟩ ⟨2, ![K, H]⟩ ⟨2, ![n, H]⟩) (hD : D = DotDims.plain n K H)
    (X : FVec Ideal ⟨2, ![n, K]⟩ .f32) (W : FVec Ideal ⟨2, ![K, H]⟩ .f32) :
    Host.dotGeneral D none X W = Gcn.Steps.product X W := by
  funext j
  obtain ⟨p, q, rfl⟩ : ∃ (p : Fin n) (q : Fin H), j = ix2 p q := ⟨j 0, j 1, eq_ix2 j⟩
  exact (Cert.Lib.DotColsHost.dotGeneral_cols_apply D hD none .single X W p q).trans
    (Gcn.Steps.product_apply X W p q).symm

/-- A vector set as one row and repeated over the rows, added to an array, is the specification's bias step with
    that vector as its one-row array: entry `(r, q)` is `A[r,q] + b[q]`. -/
theorem addRow_host (h1 : (⟨1, ![H]⟩ : Shape).BroadcastsInDim ⟨2, ![1, H]⟩ ![1])
    (h2 : (⟨2, ![1, H]⟩ : Shape).BroadcastsInDim ⟨2, ![n, H]⟩ ![0, 1])
    (A : FVec Ideal ⟨2, ![n, H]⟩ .f32) (b : FVec Ideal ⟨1, ![H]⟩ .f32) :
    addf A (broadcastInDim ⟨2, ![n, H]⟩ ![0, 1] h2 (broadcastInDim ⟨2, ![1, H]⟩ ![1] h1 b)) = Gcn.Steps.addRow A (Gcn.LayerOps.row b) := by
  funext j
  obtain ⟨p, q, rfl⟩ : ∃ (p : Fin n) (q : Fin H), j = ix2 p q := ⟨j 0, j 1, eq_ix2 j⟩
  refine Eq.trans ?_ (Gcn.Steps.addRow_apply A (Gcn.LayerOps.row b) p q).symm
  exact congrArg (A (ix2 p q) + ·) (Gcn.LayerOps.bias_rows_apply b h1 h2 p q)

/-- The maximum with zero repeated over the array is the specification's positive part: entry `(r, q)` is
    `max Y[r,q] 0`. -/
theorem relu_host (h0 : (⟨0, ![]⟩ : Shape).BroadcastsInDim ⟨2, ![n, H]⟩ ![]) (Y : FVec Ideal ⟨2, ![n, H]⟩ .f32) :
    maximumf Y (broadcastInDim ⟨2, ![n, H]⟩ ![] h0 (constant (F := Ideal) ⟨0, ![]⟩ .f32 0x00000000#32)) = Gcn.Steps.relu Y := by
  funext j
  obtain ⟨p, q, rfl⟩ : ∃ (p : Fin n) (q : Fin H), j = ix2 p q := ⟨j 0, j 1, eq_ix2 j⟩
  refine Eq.trans ?_ (Gcn.Steps.relu_apply Y p q).symm
  exact congrArg (max (Y (ix2 p q)) ·) (Gcn.LayerOps.zeros_apply ⟨2, ![n, H]⟩ h0 (ix2 p q))

end Gcn.DenseHost

end
-- ==== Proof.RefStages.lean ====
/-
  The reference program's seven lines of host operations read back, each as one function of the contents it started
  from: the three graph lines as the graph operations of `Gcn.Stages` (the same functions the kernel's stretches read
  back to), the two dense products as the entry-by-entry product, the activation as `selu`, the last line as the
  logarithm of a row softmax; and the buffers a line does not write left as they were.
-/
import proofs.«137224_j25374666785385_1_alg».proof.Proof.RefOps
import proofs.«137224_j25374666785385_1_alg».proof.Proof.Stages
import proofs.«137224_j25374666785385_1_alg».proof.Proof.LibOutlined
import proofs.«137224_j25374666785385_1_alg».proof.Proof.LibReadLine
import proofs.«137224_j25374666785385_1_alg».proof.Proof.LibDenseStepsHost
import proofs.«137224_j25374666785385_1_alg».proof.Proof.LibLogSoftmaxRows
import proofs.«137224_j25374666785385_1_alg».proof.Proof.LibSelu

set_option maxRecDepth 16384

noncomputable section

namespace Cert.ReferenceIdeal.HostStages

open Idealize.ShloMosaic Idealize.ShloMosaic.TcCoe Idealize.ShloMosaic.StableHlo Cert.ReferenceIdeal Cert.ReferenceIdeal.Gen Cert.ReferenceIdeal.RefOps

variable {F : FTy → Type} [FloatOps F]

/-! ## The first line cut in three

  Its first eighteen operations, the three of the outlined select, and its last twenty: the contents after the whole line
  are those after the three parts in turn. -/

/-- Sources, targets, degrees, the comparison and the reciprocal square root. -/
abbrev segA0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The outlined select. -/
abbrev segA1 : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- The per-node factor gathered along sources and targets, and multiplied. -/
abbrev segA2 : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

theorem segA_cut : (segA : List (HloOp τ sig (Elt F))) = segA0 ++ (segA1 ++ segA2) := rfl

theorem after_segA (V : Valuation τ sig (Elt F)) : after segA V = after segA2 (after segA1 (after segA0 V)) := by
  rw [segA_cut, Cert.Lib.Outlined.after_append, Cert.Lib.Outlined.after_append]

variable (W : Valuation τ sig (Elt Ideal))

/-! ## Before the first product: the edges

  Three steps: the sources, the targets, the degrees and the two arrays the select takes; the select (an outlined
  function's three operations); the weights from the per-node factor. -/

set_option maxHeartbeats 2000000 in
theorem step0_sources : after (segA0 (F := Ideal)) W (Proc.devRef .tc main_v3) = Gcn.Stages.rowOf (W (Proc.devRef .tc main_arg1)) := by
  read_line
  rfl
set_option maxHeartbeats 2000000 in
theorem step0_targets : after (segA0 (F := Ideal)) W (Proc.devRef .tc main_v6) = Gcn.Stages.colOf (W (Proc.devRef .tc main_arg1)) := by
  read_line
  rfl
set_option maxHeartbeats 2000000 in
theorem step0_positive :
    after (segA0 (F := Ideal)) W (Proc.devRef .tc main_v12) = Gcn.Stages.degreePositive (Gcn.Stages.colOf (W (Proc.devRef .tc main_arg1))) := by
  read_line
  rfl
set_option maxHeartbeats 2000000 in
theorem step0_rsqrt :
    after (segA0 (F := Ideal)) W (Proc.devRef .tc main_v13)
      = Host.rsqrt (Gcn.Stages.degree (Gcn.Stages.colOf (W (Proc.devRef .tc main_arg1)))) := by
  read_line
  rfl
set_option maxHeartbeats 2000000 in
theorem step0_ones :
    after (segA0 (F := Ideal)) W (Proc.devRef .tc main_v7) = Gcn.Stages.onePerEdge := by
  read_line
  rfl
set_option maxHeartbeats 2000000 in
theorem step0_zero :
    after (segA0 (F := Ideal)) W (Proc.devRef .tc main_cst_2) = constant (F := Ideal) S_ .f32 0x00000000#32 := by
  read_line

theorem step1_select :
    after (segA1 (F := Ideal)) W (Proc.devRef .tc main_v14)
      = Gcn.Stages.whereElse (W (Proc.devRef .tc main_v12)) (W (Proc.devRef .tc main_v13)) (W (Proc.devRef .tc main_cst_2)) := by
  read_line
  rfl
theorem step1_kept (b : Ref sig .tc) (hb : b = main_v3 ∨ b = main_v6 ∨ b = main_v7) :
    after (segA1 (F := Ideal)) W (Proc.devRef .tc b) = W (Proc.devRef .tc b) := by
  rcases hb with rfl | rfl | rfl <;> read_line

set_option maxHeartbeats 2000000 in
theorem step2_weights :
    after (segA2 (F := Ideal)) W (Proc.devRef .tc main_v30)
      = Gcn.Stages.edgeWeightFrom (W (Proc.devRef .tc main_v14)) (W (Proc.devRef .tc main_v7)) (W (Proc.devRef .tc main_v3))
          (W (Proc.devRef .tc main_v6)) := by
  read_line
  rfl
set_option maxHeartbeats 2000000 in
theorem step2_kept (b : Ref sig .tc) (hb : b = main_v3 ∨ b = main_v6) :
    after (segA2 (F := Ideal)) W (Proc.devRef .tc b) = W (Proc.devRef .tc b) := by
  rcases hb with rfl | rfl <;> read_line

theorem sources_read :
    after (segA (F := Ideal)) W (Proc.devRef .tc main_v3) = Gcn.Stages.rowOf (W (Proc.devRef .tc main_arg1)) := by
  rw [after_segA, step2_kept _ main_v3 (Or.inl rfl), step1_kept _ main_v3 (Or.inl rfl), step0_sources]

theorem targets_read :
    after (segA (F := Ideal)) W (Proc.devRef .tc main_v6) = Gcn.Stages.colOf (W (Proc.devRef .tc main_arg1)) := by
  rw [after_segA, step2_kept _ main_v6 (Or.inr rfl), step1_kept _ main_v6 (Or.inr (Or.inl rfl)), step0_targets]

theorem weights_read :
    after (segA (F := Ideal)) W (Proc.devRef .tc main_v30)
      = Gcn.Stages.edgeWeight (Gcn.Stages.rowOf (W (Proc.devRef .tc main_arg1))) (Gcn.Stages.colOf (W (Proc.devRef .tc main_arg1))) := by
  rw [after_segA, step2_weights, step1_select, step1_kept _ main_v3 (Or.inl rfl), step1_kept _ main_v6 (Or.inr (Or.inl rfl)),
    step1_kept _ main_v7 (Or.inr (Or.inr rfl)), step0_sources, step0_targets, step0_positive, step0_rsqrt, step0_zero,
    step0_ones]
  rfl

set_option maxHeartbeats 2000000 in
theorem entry_kept (b : Ref sig .tc) (hb : b = main_arg0 ∨ b = main_arg2 ∨ b = main_arg3 ∨ b = main_arg4 ∨ b = main_arg5) :
    after (segA (F := Ideal)) W (Proc.devRef .tc b) = W (Proc.devRef .tc b) := by
  rcases hb with rfl | rfl | rfl | rfl | rfl <;> read_line

/-! ## The first product -/

theorem product1_read :
    after (segDot1 (F := Ideal)) W (Proc.devRef .tc main_v31)
      = Gcn.Steps.product (n := 100000) (K := 256) (H := 64) ((W (Proc.devRef .tc main_arg0)) : S100000x256.Idx → EReal)
          ((W (Proc.devRef .tc main_arg2)) : S256x64.Idx → EReal) := by
  read_line
  exact Gcn.DenseHost.product_host _ rfl _ _

theorem product1_kept (b : Ref sig .tc)
    (hb : b = main_v3 ∨ b = main_v6 ∨ b = main_v30 ∨ b = main_arg3 ∨ b = main_arg4 ∨ b = main_arg5) :
    after (segDot1 (F := Ideal)) W (Proc.devRef .tc b) = W (Proc.devRef .tc b) := by
  rcases hb with rfl | rfl | rfl | rfl | rfl | rfl <;> read_line

/-! ## The first aggregation -/

set_option maxHeartbeats 2000000 in
theorem aggregate64_read :
    after (segB (F := Ideal)) W (Proc.devRef .tc main_v47)
      = Gcn.Stages.aggregate64 (W (Proc.devRef .tc main_v3)) (W (Proc.devRef .tc main_v6)) (W (Proc.devRef .tc main_v30)) (W (Proc.devRef .tc main_v31)) (W (Proc.devRef .tc main_arg3)) := by
  read_line
  rfl

set_option maxHeartbeats 2000000 in
theorem first_kept (b : Ref sig .tc) (hb : b = main_v3 ∨ b = main_v6 ∨ b = main_v30 ∨ b = main_arg4 ∨ b = main_arg5) :
    after (segB (F := Ideal)) W (Proc.devRef .tc b) = W (Proc.devRef .tc b) := by
  rcases hb with rfl | rfl | rfl | rfl | rfl <;> read_line

/-! ## The activation -/

set_option maxHeartbeats 2000000 in
theorem selu_read :
    after (segSelu (F := Ideal)) W (Proc.devRef .tc main_v48)
      = Gcn.Selu.selu ((W (Proc.devRef .tc main_v47)) : S100000x64.Idx → EReal) := by
  read_line
  exact Gcn.Selu.host_selu bcast_S_S100000x64 _

set_option maxHeartbeats 2000000 in
theorem selu_kept (b : Ref sig .tc) (hb : b = main_v3 ∨ b = main_v6 ∨ b = main_v30 ∨ b = main_arg4 ∨ b = main_arg5) :
    after (segSelu (F := Ideal)) W (Proc.devRef .tc b) = W (Proc.devRef .tc b) := by
  rcases hb with rfl | rfl | rfl | rfl | rfl <;> read_line

/-! ## The second product -/

theorem product2_read :
    after (segDot2 (F := Ideal)) W (Proc.devRef .tc main_v49)
      = Gcn.Steps.product (n := 100000) (K := 64) (H := 40) ((W (Proc.devRef .tc main_v48)) : S100000x64.Idx → EReal)
          ((W (Proc.devRef .tc main_arg4)) : S64x40.Idx → EReal) := by
  read_line
  exact Gcn.DenseHost.product_host _ rfl _ _

theorem product2_kept (b : Ref sig .tc) (hb : b = main_v3 ∨ b = main_v6 ∨ b = main_v30 ∨ b = main_arg5) :
    after (segDot2 (F := Ideal)) W (Proc.devRef .tc b) = W (Proc.devRef .tc b) := by
  rcases hb with rfl | rfl | rfl | rfl <;> read_line

/-! ## The second aggregation -/

set_option maxHeartbeats 2000000 in
theorem aggregate40_read :
    after (segC (F := Ideal)) W (Proc.devRef .tc main_v65)
      = Gcn.Stages.aggregate40 (W (Proc.devRef .tc main_v3)) (W (Proc.devRef .tc main_v6)) (W (Proc.devRef .tc main_v30)) (W (Proc.devRef .tc main_v49)) (W (Proc.devRef .tc main_arg5)) := by
  read_line
  rfl

/-! ## The row softmax -/

set_option maxHeartbeats 2000000 in
theorem logSoftmax_read :
    after (segLsm (F := Ideal)) W (Proc.devRef .tc main_v66)
      = Gcn.Layers.logSoftmaxRows (n := 100000) (C := 40) ((W (Proc.devRef .tc main_v65)) : S100000x40.Idx → EReal) := by
  read_line
  exact Gcn.SoftmaxOps.host_logSoftmaxRows reducesTo_S100000x40_S100000_d1 (by decide) h_S_ bcast_S_S100000
    bcast_S100000_S100000x1_0 bcast_S100000x1_S100000x40_0_1 _

/-! ## The arguments -/

set_option maxHeartbeats 8000000 in
/-- No line writes an argument array. -/
theorem all_kept (b : Ref sig .tc)
    (hb : b = main_arg0 ∨ b = main_arg1 ∨ b = main_arg2 ∨ b = main_arg3 ∨ b = main_arg4 ∨ b = main_arg5) :
    after (segLsm (F := Ideal)) (after segC (after segDot2 (after segSelu (after segB (after segDot1 (after segA W))))))
        (Proc.devRef .tc b)
      = W (Proc.devRef .tc b) := by
  rcases hb with rfl | rfl | rfl | rfl | rfl | rfl <;> read_line

end Cert.ReferenceIdeal.HostStages

end
-- ==== Proof.RefValue.lean ====
/-
  The reference program's result array, in closed form: the contents its seven lines of host operations leave in it are
  `Gcn.forward` of the six argument arrays as launched — the same function the kernel's program ends at.

  The contents are followed line by line: each line is one function of what it found (`HostStages`), and what a line
  does not write — the edges' sources, targets and weights once computed, the arguments — is carried along unchanged.
-/
import proofs.«137224_j25374666785385_1_alg».proof.Proof.RefStages
import proofs.«137224_j25374666785385_1_alg».proof.Proof.RefRun
import proofs.«137224_j25374666785385_1_alg».proof.Proof.Forward

set_option maxRecDepth 16384

noncomputable section

namespace Cert.ReferenceIdeal.Result

open Idealize.ShloMosaic Idealize.ShloMosaic.TcCoe Idealize.ShloMosaic.StableHlo Idealize.SL.Sem
open Cert.ReferenceIdeal Cert.ReferenceIdeal.RefOps Cert.ReferenceIdeal.HostStages

variable (m : (ℓ : Loc nD τ sig) → Buf (Elt Ideal) ℓ) (c : Dev nD)

/-- The contents after each line, from the launch. -/
abbrev VA : Valuation τ sig (Elt Ideal) := after segA (launchContents m c)
abbrev V1 : Valuation τ sig (Elt Ideal) := after segDot1 (VA m c)
abbrev VB : Valuation τ sig (Elt Ideal) := after segB (V1 m c)
abbrev VS : Valuation τ sig (Elt Ideal) := after segSelu (VB m c)
abbrev V2 : Valuation τ sig (Elt Ideal) := after segDot2 (VS m c)
abbrev VC : Valuation τ sig (Elt Ideal) := after segC (V2 m c)

theorem arg_at_entry (b : Ref sig .tc) (hb : b = main_arg0 ∨ b = main_arg2 ∨ b = main_arg3 ∨ b = main_arg4 ∨ b = main_arg5) :
    VA m c (Proc.devRef .tc b) = m ((c.tc : Thread nD τ).loc b) :=
  entry_kept (launchContents m c) b hb

theorem sources_at_entry : VA m c (Proc.devRef .tc main_v3) = Gcn.Stages.rowOf (m ((c.tc : Thread nD τ).loc main_arg1)) :=
  sources_read (launchContents m c)
theorem targets_at_entry : VA m c (Proc.devRef .tc main_v6) = Gcn.Stages.colOf (m ((c.tc : Thread nD τ).loc main_arg1)) :=
  targets_read (launchContents m c)
theorem weights_at_entry :
    VA m c (Proc.devRef .tc main_v30)
      = Gcn.Stages.edgeWeight (Gcn.Stages.rowOf (m ((c.tc : Thread nD τ).loc main_arg1))) (Gcn.Stages.colOf (m ((c.tc : Thread nD τ).loc main_arg1))) :=
  weights_read (launchContents m c)

theorem product1 :
    V1 m c (Proc.devRef .tc main_v31)
      = Gcn.Steps.product (n := 100000) (K := 256) (H := 64) (m ((c.tc : Thread nD τ).loc main_arg0)) (m ((c.tc : Thread nD τ).loc main_arg2)) := by
  rw [← arg_at_entry m c main_arg0 (Or.inl rfl), ← arg_at_entry m c main_arg2 (Or.inr (Or.inl rfl))]
  exact product1_read (VA m c)

theorem carried1 (b : Ref sig .tc)
    (hb : b = main_v3 ∨ b = main_v6 ∨ b = main_v30 ∨ b = main_arg3 ∨ b = main_arg4 ∨ b = main_arg5) :
    V1 m c (Proc.devRef .tc b) = VA m c (Proc.devRef .tc b) :=
  product1_kept (VA m c) b hb

theorem aggregate1 : VB m c (Proc.devRef .tc main_v47) = (Gcn.Stages.aggregate64 (Gcn.Stages.rowOf (m ((c.tc : Thread nD τ).loc main_arg1))) (Gcn.Stages.colOf (m ((c.tc : Thread nD τ).loc main_arg1)))
          (Gcn.Stages.edgeWeight (Gcn.Stages.rowOf (m ((c.tc : Thread nD τ).loc main_arg1))) (Gcn.Stages.colOf (m ((c.tc : Thread nD τ).loc main_arg1))))
          (Gcn.Steps.product (n := 100000) (K := 256) (H := 64) (m ((c.tc : Thread nD τ).loc main_arg0)) (m ((c.tc : Thread nD τ).loc main_arg2)))
          (m ((c.tc : Thread nD τ).loc main_arg3))) := by
  refine (aggregate64_read (V1 m c)).trans ?_
  rw [carried1 m c main_v3 (Or.inl rfl), carried1 m c main_v6 (Or.inr (Or.inl rfl)),
    carried1 m c main_v30 (Or.inr (Or.inr (Or.inl rfl))),
    carried1 m c main_arg3 (Or.inr (Or.inr (Or.inr (Or.inl rfl)))), product1, sources_at_entry,
    targets_at_entry, weights_at_entry, arg_at_entry m c main_arg3 (Or.inr (Or.inr (Or.inl rfl)))]

theorem carriedB (b : Ref sig .tc) (hb : b = main_v3 ∨ b = main_v6 ∨ b = main_v30 ∨ b = main_arg4 ∨ b = main_arg5) :
    VB m c (Proc.devRef .tc b) = VA m c (Proc.devRef .tc b) := by
  refine (first_kept (V1 m c) b hb).trans ?_
  rcases hb with rfl | rfl | rfl | rfl | rfl
  · exact carried1 m c _ (Or.inl rfl)
  · exact carried1 m c _ (Or.inr (Or.inl rfl))
  · exact carried1 m c _ (Or.inr (Or.inr (Or.inl rfl)))
  · exact carried1 m c _ (Or.inr (Or.inr (Or.inr (Or.inr (Or.inl rfl)))))
  · exact carried1 m c _ (Or.inr (Or.inr (Or.inr (Or.inr (Or.inr rfl)))))

theorem activation :
    VS m c (Proc.devRef .tc main_v48) = Gcn.Selu.selu (Gcn.Stages.aggregate64 (Gcn.Stages.rowOf (m ((c.tc : Thread nD τ).loc main_arg1))) (Gcn.Stages.colOf (m ((c.tc : Thread nD τ).loc main_arg1)))
          (Gcn.Stages.edgeWeight (Gcn.Stages.rowOf (m ((c.tc : Thread nD τ).loc main_arg1))) (Gcn.Stages.colOf (m ((c.tc : Thread nD τ).loc main_arg1))))
          (Gcn.Steps.product (n := 100000) (K := 256) (H := 64) (m ((c.tc : Thread nD τ).loc main_arg0)) (m ((c.tc : Thread nD τ).loc main_arg2)))
          (m ((c.tc : Thread nD τ).loc main_arg3))) := by
  rw [← aggregate1]
  exact selu_read (VB m c)

theorem carriedS (b : Ref sig .tc) (hb : b = main_v3 ∨ b = main_v6 ∨ b = main_v30 ∨ b = main_arg4 ∨ b = main_arg5) :
    VS m c (Proc.devRef .tc b) = VA m c (Proc.devRef .tc b) :=
  (selu_kept (VB m c) b hb).trans (carriedB m c b hb)

theorem product2 :
    V2 m c (Proc.devRef .tc main_v49)
      = Gcn.Steps.product (n := 100000) (K := 64) (H := 40) (Gcn.Selu.selu (Gcn.Stages.aggregate64 (Gcn.Stages.rowOf (m ((c.tc : Thread nD τ).loc main_arg1))) (Gcn.Stages.colOf (m ((c.tc : Thread nD τ).loc main_arg1)))
          (Gcn.Stages.edgeWeight (Gcn.Stages.rowOf (m ((c.tc : Thread nD τ).loc main_arg1))) (Gcn.Stages.colOf (m ((c.tc : Thread nD τ).loc main_arg1))))
          (Gcn.Steps.product (n := 100000) (K := 256) (H := 64) (m ((c.tc : Thread nD τ).loc main_arg0)) (m ((c.tc : Thread nD τ).loc main_arg2)))
          (m ((c.tc : Thread nD τ).loc main_arg3))))
          (m ((c.tc : Thread nD τ).loc main_arg4)) := by
  rw [← activation, ← arg_at_entry m c main_arg4 (Or.inr (Or.inr (Or.inr (Or.inl rfl)))),
    ← carriedS m c main_arg4 (Or.inr (Or.inr (Or.inr (Or.inl rfl))))]
  exact product2_read (VS m c)

theorem carried2 (b : Ref sig .tc) (hb : b = main_v3 ∨ b = main_v6 ∨ b = main_v30 ∨ b = main_arg5) :
    V2 m c (Proc.devRef .tc b) = VA m c (Proc.devRef .tc b) := by
  refine (product2_kept (VS m c) b hb).trans ?_
  rcases hb with rfl | rfl | rfl | rfl
  · exact carriedS m c _ (Or.inl rfl)
  · exact carriedS m c _ (Or.inr (Or.inl rfl))
  · exact carriedS m c _ (Or.inr (Or.inr (Or.inl rfl)))
  · exact carriedS m c _ (Or.inr (Or.inr (Or.inr (Or.inr rfl))))

theorem aggregate2 :
    VC m c (Proc.devRef .tc main_v65)
      = Gcn.Stages.aggregate40 (Gcn.Stages.rowOf (m ((c.tc : Thread nD τ).loc main_arg1))) (Gcn.Stages.colOf (m ((c.tc : Thread nD τ).loc main_arg1)))
          (Gcn.Stages.edgeWeight (Gcn.Stages.rowOf (m ((c.tc : Thread nD τ).loc main_arg1))) (Gcn.Stages.colOf (m ((c.tc : Thread nD τ).loc main_arg1))))
          (Gcn.Steps.product (n := 100000) (K := 64) (H := 40) (Gcn.Selu.selu (Gcn.Stages.aggregate64 (Gcn.Stages.rowOf (m ((c.tc : Thread nD τ).loc main_arg1))) (Gcn.Stages.colOf (m ((c.tc : Thread nD τ).loc main_arg1)))
          (Gcn.Stages.edgeWeight (Gcn.Stages.rowOf (m ((c.tc : Thread nD τ).loc main_arg1))) (Gcn.Stages.colOf (m ((c.tc : Thread nD τ).loc main_arg1))))
          (Gcn.Steps.product (n := 100000) (K := 256) (H := 64) (m ((c.tc : Thread nD τ).loc main_arg0)) (m ((c.tc : Thread nD τ).loc main_arg2)))
          (m ((c.tc : Thread nD τ).loc main_arg3))))
            (m ((c.tc : Thread nD τ).loc main_arg4)))
          (m ((c.tc : Thread nD τ).loc main_arg5)) := by
  refine (aggregate40_read (V2 m c)).trans ?_
  rw [carried2 m c main_v3 (Or.inl rfl), carried2 m c main_v6 (Or.inr (Or.inl rfl)),
    carried2 m c main_v30 (Or.inr (Or.inr (Or.inl rfl))), carried2 m c main_arg5 (Or.inr (Or.inr (Or.inr rfl))),
    product2, sources_at_entry, targets_at_entry, weights_at_entry,
    arg_at_entry m c main_arg5 (Or.inr (Or.inr (Or.inr (Or.inr rfl))))]

/-- The result array after the last line. -/
theorem result_value :
    after (RefOps.ops (F := Ideal)) (launchContents m c) (Proc.devRef .tc main_v66) = Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Cert.ReferenceIdeal.RefRun.after_ops]
  unfold Gcn.forward
  rw [← aggregate2]
  exact logSoftmax_read (VC m c)

/-- An argument array after the whole of @main is as launched. -/
theorem arg_value (b : Ref sig .tc)
    (hb : b = main_arg0 ∨ b = main_arg1 ∨ b = main_arg2 ∨ b = main_arg3 ∨ b = main_arg4 ∨ b = main_arg5) :
    after (RefOps.ops (F := Ideal)) (launchContents m c) (Proc.devRef .tc b) = m ((c.tc : Thread nD τ).loc b) := by
  rw [Cert.ReferenceIdeal.RefRun.after_ops]
  exact all_kept (launchContents m c) b hb

end Cert.ReferenceIdeal.Result

end
-- ==== Proof.lean ====
/-
  Two programs for one two-layer graph convolution over 100,000 nodes and 1,600,000 edges, and the proof that they compute
  the same array.

  The network: `logSoftmaxRows( Â · selu( Â · (X · W₁) + b₁ ) · W₂ + b₂ )`, where `Â · P + b` sends to every node the rows
  of `P` at the sources of the edges arriving at it (one self-loop per node added), each scaled by
  `1/√(deg source · deg target)`, sums them, and adds the bias row (`Gcn.forward`, Forward.lean).

  * The kernel's program runs the two dense products, the activation and the row softmax as four grids of 50 blocks of
    2,000 rows each, and the graph operations between them on the host. A dense product, an entrywise function and a
    row-wise function of a block of rows are the same function of the whole array restricted to those rows, and the
    blocks cover every row once: each region's output array is one whole-array function of its input arrays
    (RegionProducts.lean, RegionRows.lean). Rounding the products' operands to a narrower format is the identity on the
    extended reals, and `exp x − 1` is what the reference's `expm1` means there.
  * The reference's program is one line of host operations with three outlined functions; it is read back line by line
    (RefOps.lean, RefRun.lean, RefStages.lean).
  * The graph operations between the dense steps are the same host operations in both programs; each group is named once
    as a function (Stages.lean) and never opened. No algebraic law of the extended reals is needed beyond reading each
    step at an index, so the arguments' finiteness is not used.

  Both programs' result arrays end at `Gcn.forward` of the argument arrays (KernelValue.lean, RefValue.lean), which agree
  by hypothesis. The three frames: the kernel's two from the launch theorem over its nine segments, the reference's
  from its run. The idealization rewrote nothing, so `preserves` is trivial.
-/
import proofs.«137224_j25374666785385_1_alg».proof.Defs
import proofs.«137224_j25374666785385_1_alg».proof.Proof.Gen.Kernel
import proofs.«137224_j25374666785385_1_alg».proof.Proof.Gen.Kernel.Frame
import proofs.«137224_j25374666785385_1_alg».proof.Proof.Gen.KernelIdeal
import proofs.«137224_j25374666785385_1_alg».proof.Proof.Gen.KernelIdeal.Frame
import proofs.«137224_j25374666785385_1_alg».proof.Proof.Gen.ReferenceIdeal
import proofs.«137224_j25374666785385_1_alg».proof.Proof.Gen.Pre_finite_inputs
import proofs.«137224_j25374666785385_1_alg».proof.Proof.KernelRun
import proofs.«137224_j25374666785385_1_alg».proof.Proof.KernelValue
import proofs.«137224_j25374666785385_1_alg».proof.Proof.RefRun
import proofs.«137224_j25374666785385_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves every buffer at its line's contents from the launch; no operation writes an argument. -/
theorem frame_reference : Cert.frame_ReferenceIdeal := fun m ρ _ =>
  (θ_run Cert.ReferenceIdeal.defs _ _).mono
    (fun _ h c =>
      ⟨(h c Cert.ReferenceIdeal.main_arg0).trans (Cert.ReferenceIdeal.Result.arg_value m c Cert.ReferenceIdeal.main_arg0 (Or.inl rfl)),
       (h c Cert.ReferenceIdeal.main_arg1).trans (Cert.ReferenceIdeal.Result.arg_value m c Cert.ReferenceIdeal.main_arg1 (Or.inr (Or.inl rfl))),
       (h c Cert.ReferenceIdeal.main_arg2).trans (Cert.ReferenceIdeal.Result.arg_value m c Cert.ReferenceIdeal.main_arg2 (Or.inr (Or.inr (Or.inl rfl)))),
       (h c Cert.ReferenceIdeal.main_arg3).trans (Cert.ReferenceIdeal.Result.arg_value m c Cert.ReferenceIdeal.main_arg3 (Or.inr (Or.inr (Or.inr (Or.inl rfl))))),
       (h c Cert.ReferenceIdeal.main_arg4).trans (Cert.ReferenceIdeal.Result.arg_value m c Cert.ReferenceIdeal.main_arg4 (Or.inr (Or.inr (Or.inr (Or.inr (Or.inl rfl)))))),
       (h c Cert.ReferenceIdeal.main_arg5).trans (Cert.ReferenceIdeal.Result.arg_value m c Cert.ReferenceIdeal.main_arg5 (Or.inr (Or.inr (Or.inr (Or.inr (Or.inr (rfl)))))))⟩)
    (Cert.ReferenceIdeal.RefRun.run (F := Ideal) m ρ)

theorem preserves : Cert.preserves_Kernel_KernelIdeal := trivial

/-- Both programs end with their result array at `Gcn.forward` of their argument arrays, and the arguments agree. -/
theorem algebraic : Cert.algebraic_KernelIdeal_ReferenceIdeal := by
  intro m ρ m' ρ' _ hagree
  refine ⟨fun c => Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_value m ρ c), (h c).2⟩)
      (Cert.KernelIdeal.ValueRun.run (F := Ideal) m ρ)
  · refine (θ_run Cert.ReferenceIdeal.defs _ _).mono
      (fun _ h c =>
        ⟨?_,
         (h c Cert.ReferenceIdeal.main_arg0).trans (Cert.ReferenceIdeal.Result.arg_value m' c Cert.ReferenceIdeal.main_arg0 (Or.inl rfl)),
         (h c Cert.ReferenceIdeal.main_arg1).trans (Cert.ReferenceIdeal.Result.arg_value m' c Cert.ReferenceIdeal.main_arg1 (Or.inr (Or.inl rfl))),
         (h c Cert.ReferenceIdeal.main_arg2).trans (Cert.ReferenceIdeal.Result.arg_value m' c Cert.ReferenceIdeal.main_arg2 (Or.inr (Or.inr (Or.inl rfl)))),
         (h c Cert.ReferenceIdeal.main_arg3).trans (Cert.ReferenceIdeal.Result.arg_value m' c Cert.ReferenceIdeal.main_arg3 (Or.inr (Or.inr (Or.inr (Or.inl rfl))))),
         (h c Cert.ReferenceIdeal.main_arg4).trans (Cert.ReferenceIdeal.Result.arg_value m' c Cert.ReferenceIdeal.main_arg4 (Or.inr (Or.inr (Or.inr (Or.inr (Or.inl rfl)))))),
         (h c Cert.ReferenceIdeal.main_arg5).trans (Cert.ReferenceIdeal.Result.arg_value m' c Cert.ReferenceIdeal.main_arg5 (Or.inr (Or.inr (Or.inr (Or.inr (Or.inr (rfl)))))))⟩)
      (Cert.ReferenceIdeal.RefRun.run (F := Ideal) m' ρ')
    rw [h c Cert.ReferenceIdeal.main_v66, Cert.ReferenceIdeal.Result.result_value m' c, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
